-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64 : Shape := ⟨3, ![64, 256, 64]⟩
abbrev S_ : Shape := ⟨0, ![]⟩

class Facts : Prop where
  bcast_S_S64x256x64 : S_.BroadcastsInDim S64x256x64 (![] : Fin 0 → Fin S64x256x64.rank)
  reducesTo_S64x256x64_S_d0_1_2 : S64x256x64.ReducesTo [0, 1, 2] S_
  h_S_ : 0 < S_.numel

variable [Facts]

def fn {F : FTy → Type} [FloatOps F] (main_arg0 : FVec F S64x256x64 .f32) (main_arg1 : FVec F S64x256x64 .f32) : IVec S_ 1 :=
  let main_v0 : FVec F S64x256x64 .f32 := Host.absf main_arg0
  let main_cst : FVec F S_ .f32 := constant S_ .f32 0x7F800000#32
  let main_v1 : FVec F S64x256x64 .f32 := broadcastInDim S64x256x64 ![] bcast_S_S64x256x64 main_cst
  let main_v2 : IVec S64x256x64 1 := cmpf .olt main_v0 main_v1
  let main_c : IVec S_ 1 := constantI S_ 1 1#1
  let main_v3 : IVec S_ 1 := (fun x v => Host.reduce IntOp.andi x v reducesTo_S64x256x64_S_d0_1_2 h_S_) main_v2 main_c
  let main_v4 : FVec F S64x256x64 .f32 := Host.absf main_arg1
  let main_cst_0 : FVec F S_ .f32 := constant S_ .f32 0x7F800000#32
  let main_v5 : FVec F S64x256x64 .f32 := broadcastInDim S64x256x64 ![] bcast_S_S64x256x64 main_cst_0
  let main_v6 : IVec S64x256x64 1 := cmpf .olt main_v4 main_v5
  let main_c_1 : IVec S_ 1 := constantI S_ 1 1#1
  let main_v7 : IVec S_ 1 := (fun x v => Host.reduce IntOp.andi x v reducesTo_S64x256x64_S_d0_1_2 h_S_) main_v6 main_c_1
  let main_v8 : IVec S_ 1 := andi main_v3 main_v7
  main_v8
-- ==== Kernel.lean ====
abbrev S64x256x64 : Shape := ⟨3, ![64, 256, 64]⟩
abbrev S_ : Shape := ⟨0, ![]⟩
abbrev S64x256 : Shape := ⟨2, ![64, 256]⟩
abbrev S64x256x1 : Shape := ⟨3, ![64, 256, 1]⟩
abbrev S16384x64 : Shape := ⟨2, ![16384, 64]⟩
abbrev S64x64 : Shape := ⟨2, ![64, 64]⟩
abbrev S8x256x64 : Shape := ⟨3, ![8, 256, 64]⟩
abbrev S8x64 : Shape := ⟨2, ![8, 64]⟩
abbrev S2048x64 : Shape := ⟨2, ![2048, 64]⟩
abbrev S512x64 : Shape := ⟨2, ![512, 64]⟩
abbrev S2048x512 : Shape := ⟨2, ![2048, 512]⟩
abbrev S8x256x2x256 : Shape := ⟨4, ![8, 256, 2, 256]⟩
abbrev S8x256x2x128 : Shape := ⟨4, ![8, 256, 2, 128]⟩
abbrev S8x256x2 : Shape := ⟨3, ![8, 256, 2]⟩
abbrev S8x2 : Shape := ⟨2, ![8, 2]⟩
abbrev S1x1 : Shape := ⟨2, ![1, 1]⟩

abbrev nBuf : Space → Nat
  | .hbm => 85
  | .vmem => 8
  | .smem => 0
  | _ => 0

abbrev bufTy : (tb : Table) → Fin (tcTables nBuf tb) → BufTy
  | .hbm, ⟨0, _⟩ => ⟨S64x256x64, .f32⟩
  | .hbm, ⟨1, _⟩ => ⟨S64x256x64, .f32⟩
  | .hbm, ⟨2, _⟩ => ⟨S64x256x64, .f32⟩
  | .hbm, ⟨3, _⟩ => ⟨S_, .f32⟩
  | .hbm, ⟨4, _⟩ => ⟨S64x256, .f32⟩
  | .hbm, ⟨5, _⟩ => ⟨S64x256x1, .f32⟩
  | .hbm, ⟨6, _⟩ => ⟨S64x256x1, .f32⟩
  | .hbm, ⟨7, _⟩ => ⟨S_, .f32⟩
  | .hbm, ⟨8, _⟩ => ⟨S64x256x1, .f32⟩
  | .hbm, ⟨9, _⟩ => ⟨S64x256x1, .f32⟩
  | .hbm, ⟨10, _⟩ => ⟨S64x256x64, .f32⟩
  | .hbm, ⟨11, _⟩ => ⟨S64x256x64, .f32⟩
  | .hbm, ⟨12, _⟩ => ⟨S64x256x64, .f32⟩
  | .hbm, ⟨13, _⟩ => ⟨S_, .f32⟩
  | .hbm, ⟨14, _⟩ => ⟨S64x256, .f32⟩
  | .hbm, ⟨15, _⟩ => ⟨S64x256x1, .f32⟩
  | .hbm, ⟨16, _⟩ => ⟨S64x256x1, .f32⟩
  | .hbm, ⟨17, _⟩ => ⟨S_, .f32⟩
  | .hbm, ⟨18, _⟩ => ⟨S64x256x1, .f32⟩
  | .hbm, ⟨19, _⟩ => ⟨S64x256x1, .f32⟩
  | .hbm, ⟨20, _⟩ => ⟨S64x256x64, .f32⟩
  | .hbm, ⟨21, _⟩ => ⟨S64x256x64, .f32⟩
  | .hbm, ⟨22, _⟩ => ⟨S16384x64, .f32⟩
  | .hbm, ⟨23, _⟩ => ⟨S16384x64, .f32⟩
  | .hbm, ⟨24, _⟩ => ⟨S64x64, .f32⟩
  | .hbm, ⟨25, _⟩ => ⟨S64x64, .f32⟩
  | .hbm, ⟨26, _⟩ => ⟨S64x64, .i32⟩
  | .hbm, ⟨27, _⟩ => ⟨S64x64, .i32⟩
  | .hbm, ⟨28, _⟩ => ⟨S_, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S64x64, .i1⟩
  | .hbm, ⟨33, _⟩ => ⟨S_, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S_, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S1x1, .f32⟩
  | .hbm, ⟨61, _⟩ => ⟨S_, .f32⟩
  | .hbm, ⟨62, _⟩ => ⟨S1x1, .f32⟩
  | .hbm, ⟨63, _⟩ => ⟨S1x1, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S8x256x64, .f32⟩
  | .local _ .vmem, ⟨1, _⟩ => ⟨S8x256x64, .f32⟩
  | .local _ .vmem, ⟨2, _⟩ => ⟨S16384x64, .f32⟩
  | .local _ .vmem, ⟨3, _⟩ => ⟨S16384x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | _, _ => ⟨S64x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_call2_v0 : Ref sig .tc := ⟨.hbm, 34, rfl⟩
abbrev main_call2_v1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_call3_v0 : Ref sig .tc := ⟨.hbm, 45, rfl⟩
abbrev main_call3_v1 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_c_9 : Ref sig .tc := ⟨.hbm, 57, rfl⟩
abbrev main_call4_call0_cst : Ref sig .tc := ⟨.hbm, 58, rfl⟩
abbrev main_call4_call0_v0 : Ref sig .tc := ⟨.hbm, 59, rfl⟩
abbrev main_call4_call0_v1 : Ref sig .tc := ⟨.hbm, 60, rfl⟩
abbrev main_call4_call0_cst_0 : Ref sig .tc := ⟨.hbm, 61, rfl⟩
abbrev main_call4_call0_v2 : Ref sig .tc := ⟨.hbm, 62, rfl⟩
abbrev main_call4_call0_v3 : Ref sig .tc := ⟨.hbm, 63, rfl⟩
abbrev main_call4_call0_v4 : Ref sig .tc := ⟨.hbm, 64, rfl⟩
abbrev main_call4_call0_v5 : Ref sig .tc := ⟨.hbm, 65, rfl⟩
abbrev main_call4_call0_v6 : Ref sig .tc := ⟨.hbm, 66, rfl⟩
abbrev main_call4_call0_v7 : Ref sig .tc := ⟨.hbm, 67, rfl⟩
abbrev main_call4_call0_cst_1 : Ref sig .tc := ⟨.hbm, 68, rfl⟩
abbrev main_call4_call0_v8 : Ref sig .tc := ⟨.hbm, 69, rfl⟩
abbrev main_call4_call0_cst_2 : Ref sig .tc := ⟨.hbm, 70, rfl⟩
abbrev main_call4_call0_v9 : Ref sig .tc := ⟨.hbm, 71, rfl⟩
abbrev main_call4_call0_v10 : Ref sig .tc := ⟨.hbm, 72, rfl⟩
abbrev main_call4_call0_cst_3 : Ref sig .tc := ⟨.hbm, 73, rfl⟩
abbrev main_call4_call0_v11 : Ref sig .tc := ⟨.hbm, 74, rfl⟩
abbrev main_call4_call0_cst_4 : Ref sig .tc := ⟨.hbm, 75, rfl⟩
abbrev main_call4_call0_call0_v0 : Ref sig .tc := ⟨.hbm, 76, rfl⟩
abbrev main_call4_v0 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_10 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x256x64_S64x256_d2 : S64x256x64.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x64_0_1_2 : S64x256x1.BroadcastsInDim S64x256x64 (![0, 1, 2] : Fin 3 → Fin S64x256x64.rank)
  shapeCasts_S64x256x64_S16384x64 : S64x256x64.ShapeCasts S16384x64
  inb_S8x256x64_S8x256x64_0_0_0 : ∀ a, (![0, 0, 0] : Fin 3 → Nat) a + S8x256x64.size a ≤ S8x256x64.size a
  h_S8x256x64 : 0 < S8x256x64.numel
  shapeCasts_S8x256x64_S8x256x64 : S8x256x64.ShapeCasts S8x256x64
  shapeCasts_S8x256x64_S2048x64 : S8x256x64.ShapeCasts S2048x64
  inb_S16384x64_S512x64_0_0 : ∀ a, (![0, 0] : Fin 2 → Nat) a + S512x64.size a ≤ S16384x64.size a
  h_S512x64 : 0 < S512x64.numel
  shapeCasts_S512x64_S512x64 : S512x64.ShapeCasts S512x64
  shapeCasts_S2048x512_S8x256x2x256 : S2048x512.ShapeCasts S8x256x2x256
  slices_S8x256x2x256_o0_0_0_0_S8x256x2x128 : S8x256x2x256.Slices ![0, 0, 0, 0] S8x256x2x128
  slices_S8x256x2x256_o0_0_0_128_S8x256x2x128 : S8x256x2x256.Slices ![0, 0, 0, 128] S8x256x2x128
  reduces_S8x256x2x128_S8x256x2 : S8x256x2x128.Reduces [3] S8x256x2
  reduces_S8x256x2_S8x2 : S8x256x2.Reduces [1] S8x2
  inb_S16384x64_S512x64_512_0 : ∀ a, (![512, 0] : Fin 2 → Nat) a + S512x64.size a ≤ S16384x64.size a
  inb_S16384x64_S512x64_1024_0 : ∀ a, (![1024, 0] : Fin 2 → Nat) a + S512x64.size a ≤ S16384x64.size a
  inb_S16384x64_S512x64_1536_0 : ∀ a, (![1536, 0] : Fin 2 → Nat) a + S512x64.size a ≤ S16384x64.size a
  inb_S16384x64_S512x64_2048_0 : ∀ a, (![2048, 0] : Fin 2 → Nat) a + S512x64.size a ≤ S16384x64.size a
  inb_S16384x64_S512x64_2560_0 : ∀ a, (![2560, 0] : Fin 2 → Nat) a + S512x64.size a ≤ S16384x64.size a
  inb_S16384x64_S512x64_3072_0 : ∀ a, (![3072, 0] : Fin 2 → Nat) a + S512x64.size a ≤ S16384x64.size a
  inb_S16384x64_S512x64_3584_0 : ∀ a, (![3584, 0] : Fin 2 → Nat) a + S512x64.size a ≤ S16384x64.size a
  inb_S16384x64_S512x64_4096_0 : ∀ a, (![4096, 0] : Fin 2 → Nat) a + S512x64.size a ≤ S16384x64.size a
  inb_S16384x64_S512x64_4608_0 : ∀ a, (![4608, 0] : Fin 2 → Nat) a + S512x64.size a ≤ S16384x64.size a
  inb_S16384x64_S512x64_5120_0 : ∀ a, (![5120, 0] : Fin 2 → Nat) a + S512x64.size a ≤ S16384x64.size a
  inb_S16384x64_S512x64_5632_0 : ∀ a, (![5632, 0] : Fin 2 → Nat) a + S512x64.size a ≤ S16384x64.size a
  inb_S16384x64_S512x64_6144_0 : ∀ a, (![6144, 0] : Fin 2 → Nat) a + S512x64.size a ≤ S16384x64.size a
  inb_S16384x64_S512x64_6656_0 : ∀ a, (![6656, 0] : Fin 2 → Nat) a + S512x64.size a ≤ S16384x64.size a
  inb_S16384x64_S512x64_7168_0 : ∀ a, (![7168, 0] : Fin 2 → Nat) a + S512x64.size a ≤ S16384x64.size a
  inb_S16384x64_S512x64_7680_0 : ∀ a, (![7680, 0] : Fin 2 → Nat) a + S512x64.size a ≤ S16384x64.size a
  inb_S16384x64_S512x64_8192_0 : ∀ a, (![8192, 0] : Fin 2 → Nat) a + S512x64.size a ≤ S16384x64.size a
  inb_S16384x64_S512x64_8704_0 : ∀ a, (![8704, 0] : Fin 2 → Nat) a + S512x64.size a ≤ S16384x64.size a
  inb_S16384x64_S512x64_9216_0 : ∀ a, (![9216, 0] : Fin 2 → Nat) a + S512x64.size a ≤ S16384x64.size a
  inb_S16384x64_S512x64_9728_0 : ∀ a, (![9728, 0] : Fin 2 → Nat) a + S512x64.size a ≤ S16384x64.size a
  inb_S16384x64_S512x64_10240_0 : ∀ a, (![10240, 0] : Fin 2 → Nat) a + S512x64.size a ≤ S16384x64.size a
  inb_S16384x64_S512x64_10752_0 : ∀ a, (![10752, 0] : Fin 2 → Nat) a + S512x64.size a ≤ S16384x64.size a
  inb_S16384x64_S512x64_11264_0 : ∀ a, (![11264, 0] : Fin 2 → Nat) a + S512x64.size a ≤ S16384x64.size a
  inb_S16384x64_S512x64_11776_0 : ∀ a, (![11776, 0] : Fin 2 → Nat) a + S512x64.size a ≤ S16384x64.size a
  inb_S16384x64_S512x64_12288_0 : ∀ a, (![12288, 0] : Fin 2 → Nat) a + S512x64.size a ≤ S16384x64.size a
  inb_S16384x64_S512x64_12800_0 : ∀ a, (![12800, 0] : Fin 2 → Nat) a + S512x64.size a ≤ S16384x64.size a
  inb_S16384x64_S512x64_13312_0 : ∀ a, (![13312, 0] : Fin 2 → Nat) a + S512x64.size a ≤ S16384x64.size a
  inb_S16384x64_S512x64_13824_0 : ∀ a, (![13824, 0] : Fin 2 → Nat) a + S512x64.size a ≤ S16384x64.size a
  inb_S16384x64_S512x64_14336_0 : ∀ a, (![14336, 0] : Fin 2 → Nat) a + S512x64.size a ≤ S16384x64.size a
  inb_S16384x64_S512x64_14848_0 : ∀ a, (![14848, 0] : Fin 2 → Nat) a + S512x64.size a ≤ S16384x64.size a
  inb_S16384x64_S512x64_15360_0 : ∀ a, (![15360, 0] : Fin 2 → Nat) a + S512x64.size a ≤ S16384x64.size a
  inb_S16384x64_S512x64_15872_0 : ∀ a, (![15872, 0] : Fin 2 → Nat) a + S512x64.size a ≤ S16384x64.size a
  concatenates_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x64_d1 : Shape.Concatenates [S8x2, S8x2, S8x2, S8x2, S8x2, S8x2, S8x2, S8x2, S8x2, S8x2, S8x2, S8x2, S8x2, S8x2, S8x2, S8x2, S8x2, S8x2, S8x2, S8x2, S8x2, S8x2, S8x2, S8x2, S8x2, S8x2, S8x2, S8x2, S8x2, S8x2, S8x2, S8x2] S8x64 1
  inb_S8x64_S8x64_0_0 : ∀ a, (![0, 0] : Fin 2 → Nat) a + S8x64.size a ≤ S8x64.size a
  h_S8x64 : 0 < S8x64.numel
  bcast_S_S64x64 : S_.BroadcastsInDim S64x64 (![] : Fin 0 → Fin S64x64.rank)
  reducesTo_S64x64_S_d0_1 : S64x64.ReducesTo [0, 1] S_
  bcast_S_S1x1 : S_.BroadcastsInDim S1x1 (![] : Fin 0 → Fin S1x1.rank)
  bcast_S1x1_S64x64_0_1 : S1x1.BroadcastsInDim S64x64 (![0, 1] : Fin 2 → Fin S64x64.rank)
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x64.size a ≤ S64x256x64.size a
  hwx0_0 : ∀ i : grid0.Coords, EltTy.bits .f32 = 32 ∨ (Rect.block (s := S64x256x64) S8x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .f32 = 32 ∨ (Rect.block (s := S16384x64) S16384x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S64x64.size a
  hwx0_3 : ∀ i : grid0.Coords, EltTy.bits .f32 = 32 ∨ (Rect.block (s := S64x64) S8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S64x64.size a
  hwx0_4 : ∀ i : grid0.Coords, EltTy.bits .f32 = 32 ∨ (Rect.block (s := S64x64) S8x64.size (cc0_transform_4 i) (hinb0_4 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_v4) S8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S8x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x64 : Shape := ⟨3, ![64, 256, 64]⟩
abbrev S_ : Shape := ⟨0, ![]⟩
abbrev S64x256 : Shape := ⟨2, ![64, 256]⟩
abbrev S64x256x1 : Shape := ⟨3, ![64, 256, 1]⟩
abbrev S64x256x64x256 : Shape := ⟨4, ![64, 256, 64, 256]⟩
abbrev S64x64x256x256 : Shape := ⟨4, ![64, 64, 256, 256]⟩
abbrev S64x64x256 : Shape := ⟨3, ![64, 64, 256]⟩
abbrev S64x64 : Shape := ⟨2, ![64, 64]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S64x256x64, .f32⟩
  | .hbm, ⟨1, _⟩ => ⟨S64x256x64, .f32⟩
  | .hbm, ⟨2, _⟩ => ⟨S64x256x64, .f32⟩
  | .hbm, ⟨3, _⟩ => ⟨S_, .f32⟩
  | .hbm, ⟨4, _⟩ => ⟨S64x256, .f32⟩
  | .hbm, ⟨5, _⟩ => ⟨S64x256x1, .f32⟩
  | .hbm, ⟨6, _⟩ => ⟨S64x256x1, .f32⟩
  | .hbm, ⟨7, _⟩ => ⟨S_, .f32⟩
  | .hbm, ⟨8, _⟩ => ⟨S64x256x1, .f32⟩
  | .hbm, ⟨9, _⟩ => ⟨S64x256x1, .f32⟩
  | .hbm, ⟨10, _⟩ => ⟨S64x256x64, .f32⟩
  | .hbm, ⟨11, _⟩ => ⟨S64x256x64, .f32⟩
  | .hbm, ⟨12, _⟩ => ⟨S64x256x64, .f32⟩
  | .hbm, ⟨13, _⟩ => ⟨S_, .f32⟩
  | .hbm, ⟨14, _⟩ => ⟨S64x256, .f32⟩
  | .hbm, ⟨15, _⟩ => ⟨S64x256x1, .f32⟩
  | .hbm, ⟨16, _⟩ => ⟨S64x256x1, .f32⟩
  | .hbm, ⟨17, _⟩ => ⟨S_, .f32⟩
  | .hbm, ⟨18, _⟩ => ⟨S64x256x1, .f32⟩
  | .hbm, ⟨19, _⟩ => ⟨S64x256x1, .f32⟩
  | .hbm, ⟨20, _⟩ => ⟨S64x256x64, .f32⟩
  | .hbm, ⟨21, _⟩ => ⟨S64x256x64, .f32⟩
  | .hbm, ⟨22, _⟩ => ⟨S64x256x64x256, .f32⟩
  | .hbm, ⟨23, _⟩ => ⟨S64x64x256x256, .f32⟩
  | .hbm, ⟨24, _⟩ => ⟨S_, .f32⟩
  | .hbm, ⟨25, _⟩ => ⟨S64x64x256, .f32⟩
  | .hbm, ⟨26, _⟩ => ⟨S_, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x256x64x256, .f32⟩
  | .hbm, ⟨32, _⟩ => ⟨S64x64x256x256, .f32⟩
  | .hbm, ⟨33, _⟩ => ⟨S_, .f32⟩
  | .hbm, ⟨34, _⟩ => ⟨S64x64x256, .f32⟩
  | .hbm, ⟨35, _⟩ => ⟨S_, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S64x64, .i1⟩
  | .hbm, ⟨46, _⟩ => ⟨S64x64, .i1⟩
  | .hbm, ⟨47, _⟩ => ⟨S_, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S1x1, .f32⟩
  | .hbm, ⟨75, _⟩ => ⟨S_, .f32⟩
  | .hbm, ⟨76, _⟩ => ⟨S1x1, .f32⟩
  | .hbm, ⟨77, _⟩ => ⟨S1x1, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .i1⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S64x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v34 : Ref sig .tc := ⟨.hbm, 61, rfl⟩
abbrev main_cst_11 : Ref sig .tc := ⟨.hbm, 62, rfl⟩
abbrev main_v35 : Ref sig .tc := ⟨.hbm, 63, rfl⟩
abbrev main_cst_12 : Ref sig .tc := ⟨.hbm, 64, rfl⟩
abbrev main_v36 : Ref sig .tc := ⟨.hbm, 65, rfl⟩
abbrev main_v37 : Ref sig .tc := ⟨.hbm, 66, rfl⟩
abbrev main_cst_13 : Ref sig .tc := ⟨.hbm, 67, rfl⟩
abbrev main_v38 : Ref sig .tc := ⟨.hbm, 68, rfl⟩
abbrev main_cst_14 : Ref sig .tc := ⟨.hbm, 69, rfl⟩
abbrev main_v39 : Ref sig .tc := ⟨.hbm, 70, rfl⟩
abbrev main_c_15 : Ref sig .tc := ⟨.hbm, 71, rfl⟩
abbrev main_call4_call0_cst : Ref sig .tc := ⟨.hbm, 72, rfl⟩
abbrev main_call4_call0_v0 : Ref sig .tc := ⟨.hbm, 73, rfl⟩
abbrev main_call4_call0_v1 : Ref sig .tc := ⟨.hbm, 74, rfl⟩
abbrev main_call4_call0_cst_0 : Ref sig .tc := ⟨.hbm, 75, rfl⟩
abbrev main_call4_call0_v2 : Ref sig .tc := ⟨.hbm, 76, rfl⟩
abbrev main_call4_call0_v3 : Ref sig .tc := ⟨.hbm, 77, rfl⟩
abbrev main_call4_call0_v4 : Ref sig .tc := ⟨.hbm, 78, rfl⟩
abbrev main_call4_call0_v5 : Ref sig .tc := ⟨.hbm, 79, rfl⟩
abbrev main_call4_call0_v6 : Ref sig .tc := ⟨.hbm, 80, rfl⟩
abbrev main_call4_call0_v7 : Ref sig .tc := ⟨.hbm, 81, rfl⟩
abbrev main_call4_call0_cst_1 : Ref sig .tc := ⟨.hbm, 82, rfl⟩
abbrev main_call4_call0_v8 : Ref sig .tc := ⟨.hbm, 83, rfl⟩
abbrev main_call4_call0_cst_2 : Ref sig .tc := ⟨.hbm, 84, rfl⟩
abbrev main_call4_call0_v9 : Ref sig .tc := ⟨.hbm, 85, rfl⟩
abbrev main_call4_call0_v10 : Ref sig .tc := ⟨.hbm, 86, rfl⟩
abbrev main_call4_call0_cst_3 : Ref sig .tc := ⟨.hbm, 87, rfl⟩
abbrev main_call4_call0_v11 : Ref sig .tc := ⟨.hbm, 88, rfl⟩
abbrev main_call4_call0_cst_4 : Ref sig .tc := ⟨.hbm, 89, rfl⟩
abbrev main_call4_call0_call0_v0 : Ref sig .tc := ⟨.hbm, 90, rfl⟩
abbrev main_call4_v0 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_16 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩

abbrev nD : Nat := 1
abbrev τ : Topo := Topo.v7x

variable {F : FTy → Type} [FloatOps F]

class Facts₀ : Prop where
  reducesTo_S64x256x64_S64x256_d2 : S64x256x64.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x64_0_1_2 : S64x256x1.BroadcastsInDim S64x256x64 (![0, 1, 2] : Fin 3 → Fin S64x256x64.rank)
  transposes_S64x256x64x256_S64x64x256x256_2_0_3_1 : S64x256x64x256.Transposes [2, 0, 3, 1] S64x64x256x256
  reducesTo_S64x64x256x256_S64x64x256_d3 : S64x64x256x256.ReducesTo [3] S64x64x256
  reducesTo_S64x64x256_S64x64_d2 : S64x64x256.ReducesTo [2] S64x64
  bcast_S_S64x64 : S_.BroadcastsInDim S64x64 (![] : Fin 0 → Fin S64x64.rank)
  reducesTo_S64x64_S_d0_1 : S64x64.ReducesTo [0, 1] S_
  bcast_S_S1x1 : S_.BroadcastsInDim S1x1 (![] : Fin 0 → Fin S1x1.rank)
  bcast_S1x1_S64x64_0_1 : S1x1.BroadcastsInDim S64x64 (![0, 1] : Fin 2 → Fin S64x64.rank)
  dot_S64x256x64_S64x256x64_S64x256x64x256_2_2_01_01_n_n_wf : DotDims.WF S64x256x64 S64x256x64 S64x256x64x256 [2] [2] [0, 1] [0, 1] [] []

variable [Facts₀]

def dot_S64x256x64_S64x256x64_S64x256x64x256_2_2_01_01_n_n : DotDims S64x256x64 S64x256x64 S64x256x64x256 where
  lhsContracting := [2]
  rhsContracting := [2]
  lhsNonContracting := [0, 1]
  rhsNonContracting := [0, 1]
  lhsBatch := []
  rhsBatch := []
  wf := dot_S64x256x64_S64x256x64_S64x256x64x256_2_2_01_01_n_n_wf

class Facts : Prop extends Facts₀ where

variable [Facts]
-- ==== Proof.Spec.lean ====
/-
  The two stages the kernel's program and the reference share or must agree on, as functions of whole arrays,
  written over the reference's shapes.

  * `nrm a`: every patch (a row of 64 numbers, the last axis) divided by its Euclidean length plus a small
    constant: `a / (sqrt (sum_k a^2) + eps)`.
  * `simRef a b`: the patch similarity of two stacks of 64 images with 256 patches each.  Entry `(i, j)` is the
    mean over the patches `p` of image `i` of `a` of the largest inner product of that patch with a patch `q`
    of image `j` of `b`:  `(sum_p max_q sum_k b[j,q,k] * a[i,p,k]) / 256`.  The contraction is taken with `b`
    on the left, so its result is indexed `(j, q, i, p)` and a transposition brings it to `(i, j, p, q)`; the
    maximum starts from minus infinity and the sum from zero.
-/
import proofs.«149478_j24739011625309_2_alg».proof.ReferenceIdeal

noncomputable section

namespace Cert.ReferenceIdeal.Sep

open Idealize.ShloMosaic Idealize.SL.Sem Cert.ReferenceIdeal
open Cert.ReferenceIdeal.Facts₀

variable {F : FTy → Type} [FloatOps F] [Facts]

/-- Each patch divided by its Euclidean length plus the small constant. -/
def nrm (a : FVec F S64x256x64 .f32) : FVec F S64x256x64 .f32 :=
  Host.divf a (broadcastInDim S64x256x64 ![0, 1, 2] bcast_S64x256x1_S64x256x64_0_1_2
    (addf (Host.sqrt (broadcastInDim S64x256x1 ![0, 1] bcast_S64x256_S64x256x1_0_1
        (Host.reduceAdd (mulf a a) (constant S_ .f32 0x00000000#32) reducesTo_S64x256x64_S64x256_d2 h_S_)))
      (broadcastInDim S64x256x1 ![] bcast_S_S64x256x1 (constant S_ .f32 0x322BCC77#32))))

/-- The patch similarity matrix: mean over `p` of the maximum over `q` of the inner products. -/
def simRef (a b : FVec F S64x256x64 .f32) : FVec F S64x64 .f32 :=
  Host.divf
    (Host.reduceAdd
      (Host.reduce FloatOps.maximumf
        (transpose S64x64x256x256 [2, 0, 3, 1]
          (Host.dotGeneral dot_S64x256x64_S64x256x64_S64x256x64x256_2_2_01_01_n_n none b a)
          transposes_S64x256x64x256_S64x64x256x256_2_0_3_1)
        (constant S_ .f32 0xFF800000#32) reducesTo_S64x64x256x256_S64x64x256_d3 h_S_)
      (constant S_ .f32 0x00000000#32) reducesTo_S64x64x256_S64x64_d2 h_S_)
    (broadcastInDim S64x64 ![] bcast_S_S64x64 (constant S_ .f32 0x43800000#32))

end Cert.ReferenceIdeal.Sep

end
-- ==== Proof.KChunk.lean ====
/-
  One chunk of the kernel body as one function, and the body's whole result row block as a family of 32 chunks.

  At a grid point the body holds the 8 query images of the point as a [2048, 64] matrix `A` (image `i`, patch `p`
  in row `i*256 + p`) and, per chunk `c`, the 512 rows `512c .. 512c+511` of the other side's [16384, 64] matrix:
  two images of 256 patches.  `chunk A R` is the [8, 2] block whose entry `(i, cc)` is
      (sum over p of  max over q < 128 of  max (S (i,p,cc,q), S (i,p,cc,q+128))) / 256
  with `S (i,p,cc,q) = sum_k A (i*256+p, k) * R (cc*256+q, k)` — the matrix product `A · Rᵀ` reshaped to
  [8, 256, 2, 256], its last axis folded in two halves, reduced by a maximum from minus infinity, summed over the
  patches from zero and divided by 256.  The 32 chunks' blocks are laid side by side along the columns.
-/
import proofs.«149478_j24739011625309_2_alg».proof.Proof.Gen.KernelIdeal

noncomputable section

namespace Cert.KernelIdeal.Sim

open Idealize.ShloMosaic Idealize.SL.Sem Cert.KernelIdeal
open Cert.KernelIdeal.Facts₀

variable {F : FTy → Type} [FloatOps F]

/-- The product of the query matrix with one chunk's rows, as scores indexed (image, patch, image of the chunk, patch). -/
def scores (A : FVec F S2048x64 .f32) (R : Vec F S512x64 .f32) : FVec F S8x256x2x256 .f32 :=
  shapeCast S8x256x2x256
    (matmul dot_S2048x64_S512x64_S2048x512_1_1_0_0_n_n none A (shapeCast S512x64 R shapeCasts_S512x64_S512x64)
      (constant S2048x512 .f32 0x00000000#32))
    shapeCasts_S2048x512_S8x256x2x256

/-- One chunk: the mean over the query patches of the largest score against each of the chunk's two images. -/
def chunk (A : FVec F S2048x64 .f32) (R : Vec F S512x64 .f32) : FVec F S8x2 .f32 :=
  divf
    (multiReduction .add [1] S8x2
      (multiReduction .maximumf [3] S8x256x2
        (maximumf
          (extractStridedSlice S8x256x2x128 ![0, 0, 0, 0] (scores A R) slices_S8x256x2x256_o0_0_0_0_S8x256x2x128)
          (extractStridedSlice S8x256x2x128 ![0, 0, 0, 128] (scores A R) slices_S8x256x2x256_o0_0_0_128_S8x256x2x128))
        0xFF800000#32 reduces_S8x256x2x128_S8x256x2 (.inl rfl) rfl)
      0x00000000#32 reduces_S8x256x2_S8x2 (.inl rfl) rfl)
    (broadcast S8x2 (Scalar.ofBits .f32 0x43800000#32))

/-- The query block [8, 256, 64] as the matrix [2048, 64]. -/
def flat (x0 : Vec F S8x256x64 .f32) : FVec F S2048x64 .f32 :=
  shapeCast S2048x64 (shapeCast S8x256x64 x0 shapeCasts_S8x256x64_S8x256x64) shapeCasts_S8x256x64_S2048x64

/-- 32 blocks of shape [8, 2] side by side along the columns. -/
def cat32 (g : Fin 32 → FVec F S8x2 .f32) : FVec F S8x64 .f32 :=
  concatenate S8x64 1 (List.ofFn fun n : Fin 32 => (⟨S8x2, g n⟩ : (s : Shape) × (s.Idx → F .f32)))
    concatenates_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x2_S8x64_d1

end Cert.KernelIdeal.Sim

end
-- ==== Proof.KOut.lean ====
/-
  What the kernel body leaves in its two output blocks at a grid point, as the family of 32 chunks:
  chunk `n` pairs the point's 8 query images with rows `512 n .. 512 n + 511` of the other side's matrix.
-/
import proofs.«149478_j24739011625309_2_alg».proof.Proof.Gen.KernelIdeal.Frame
import proofs.«149478_j24739011625309_2_alg».proof.Proof.KChunk

noncomputable section

namespace Cert.KernelIdeal.Sim

open Idealize.ShloMosaic Idealize.SL.Sem Cert.KernelIdeal Cert.KernelIdeal.Gen

variable {F : FTy → Type} [FloatOps F]

/-- Rows `512 n .. 512 n + 511`, all 64 columns, of a [16384, 64] buffer. -/
def crect (n : Fin 32) : Rect S16384x64 :=
  Rect.unit (s := S16384x64) ![512 * n.val, 0] S512x64.size (fun a => by
    match a with
    | ⟨0, _⟩ => show 512 * n.val + 512 ≤ 16384; have := n.isLt; omega
    | ⟨1, _⟩ => show 0 + 64 ≤ 64; omega)

theorem out0_3_eq (x0 : Vec F S8x256x64 .f32) (x1 x2 : Vec F S16384x64 .f32) :
    out0_3 x0 x1 x2
      = View.canon [(⟨r0_33, cat32 fun n => chunk (flat (View.ld x0 r0_0)) (View.ld x1 (crect n))⟩ : View.Piece (Elt F) S8x64 .f32)] :=
  rfl

theorem out0_4_eq (x0 : Vec F S8x256x64 .f32) (x1 x2 : Vec F S16384x64 .f32) :
    out0_4 x0 x1 x2
      = View.canon [(⟨r0_33, cat32 fun n => chunk (flat (View.ld x0 r0_0)) (View.ld x2 (crect n))⟩ : View.Piece (Elt F) S8x64 .f32)] :=
  rfl

end Cert.KernelIdeal.Sim

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.KChunkAt.lean ====
/-
  One chunk read at an entry, on the extended reals.

  With `rowDot A R r s = sum_k A (r, k) * R (s, k)` (row `r` of the query matrix against row `s` of the chunk),
  entry `(i, cc)` of `chunk A R` is
      (sum_{p < 256}  max_{q < 128} max (rowDot (i*256+p) (cc*256+q)) (rowDot (i*256+p) (cc*256+q+128))) / 256,
  the maximum taken from the value of the minus-infinity word and the sum from nothing: the reshape of the
  [2048, 512] product to [8, 256, 2, 256] keeps row-major positions, so score `(i, p, cc, q)` is entry
  `(i*256+p, cc*256+q)` of the product; the two slices of the last axis start at columns 0 and 128.
-/
import proofs.«149478_j24739011625309_2_alg».proof.Proof.KChunk
import proofs.«149478_j24739011625309_2_alg».proof.Proof.LibContract
import Idealize.ShloMosaic.Lib.Pipeline.Value
import Idealize.ShloMosaic.Lib.ValueIdx
import Idealize.ShloMosaic.PureOps.Ideal.Laws

noncomputable section

namespace Cert.KernelIdeal.Sim

open Idealize.ShloMosaic Idealize.ShloMosaic.ValueIdx Idealize.SL.Sem Cert.KernelIdeal
open Cert.KernelIdeal.Facts₀
open scoped BigOperators

/-- Row `r` of `A` against row `s` of `R`. -/
def rowDot (A : FVec Ideal S2048x64 .f32) (R : FVec Ideal S512x64 .f32) (r : Fin 2048) (s : Fin 512) : EReal :=
  ∑ k : Fin 64, A (ix2 r k) * R (ix2 s k)

theorem row_lt (i : Fin 8) (p : Fin 256) : i.val * 256 + p.val < 2048 := by
  have := i.isLt; have := p.isLt; omega
theorem col_lt (cc : Fin 2) (q : Fin 256) : cc.val * 256 + q.val < 512 := by
  have := cc.isLt; have := q.isLt; omega

/-- The product into a zero accumulator at an entry. -/
theorem prod_apply (A : FVec Ideal S2048x64 .f32) (R : FVec Ideal S512x64 .f32) (r : Fin 2048) (s : Fin 512) :
    matmul dot_S2048x64_S512x64_S2048x512_1_1_0_0_n_n none A R (constant S2048x512 .f32 0x00000000#32) (ix2 r s)
      = rowDot A R r s :=
  Cert.LibContract.matmul_zero_apply dot_S2048x64_S512x64_S2048x512_1_1_0_0_n_n 64 rfl rfl none A R (ix2 r s)
    (fun k => ix2 r k) (fun k => ix2 s k)
    (fun q i h => funext fun a => Fin.ext (by
      match a with
      | ⟨0, _⟩ => rfl
      | ⟨1, _⟩ => exact h))
    (fun q i h => funext fun a => Fin.ext (by
      match a with
      | ⟨0, _⟩ => rfl
      | ⟨1, _⟩ => exact h))

/-- A score is an entry of the product. -/
theorem scores_apply (A : FVec Ideal S2048x64 .f32) (R : FVec Ideal S512x64 .f32) (i : Fin 8) (p : Fin 256) (cc : Fin 2)
    (q : Fin 256) :
    scores A R (ix4 i p cc q) = rowDot A R ⟨i.val * 256 + p.val, row_lt i p⟩ ⟨cc.val * 256 + q.val, col_lt cc q⟩ := by
  unfold scores
  rw [shapeCast_self R shapeCasts_S512x64_S512x64]
  refine (shapeCast_apply _ _ (ix4 i p cc q)
    (ix2 (⟨i.val * 256 + p.val, row_lt i p⟩ : Fin 2048) (⟨cc.val * 256 + q.val, col_lt cc q⟩ : Fin 512)) ?_).trans
    (prod_apply A R _ _)
  rw [Shape.rowMajor_val_two, Shape.rowMajor_val_four]
  show (i.val * 256 + p.val) * 512 + (cc.val * 256 + q.val) = ((i.val * 256 + p.val) * 2 + cc.val) * 256 + q.val
  have := cc.isLt; omega

/-- The patch coordinate put back into a reduced index. -/
theorem lift_patch (h : S8x256x2.Reduces [1] S8x2) (i : Fin 8) (cc : Fin 2) (p : Fin 256) :
    h.lift (ix2 i cc) p = ix3 i p cc := by
  funext a; apply Fin.ext
  match a with
  | ⟨0, _⟩ => rfl
  | ⟨1, _⟩ => rfl
  | ⟨2, _⟩ => rfl

/-- The lane coordinate put back into a reduced index. -/
theorem lift_lane (h : S8x256x2x128.Reduces [3] S8x256x2) (i : Fin 8) (p : Fin 256) (cc : Fin 2) (q : Fin 128) :
    h.lift (ix3 i p cc) q = ix4 i p cc q := by
  funext a; apply Fin.ext
  match a with
  | ⟨0, _⟩ => rfl
  | ⟨1, _⟩ => rfl
  | ⟨2, _⟩ => rfl
  | ⟨3, _⟩ => rfl

theorem half_lt (o : Nat) (ho : o = 0 ∨ o = 128) (q : Fin 128) : o + q.val < 256 := by
  have := q.isLt; omega

/-- A slice of the last axis starting at column `o`. -/
theorem slice_apply (o : Nat) (ho : o = 0 ∨ o = 128) (S : FVec Ideal S8x256x2x256 .f32)
    (h : S8x256x2x256.Slices ![0, 0, 0, o] S8x256x2x128) (i : Fin 8) (p : Fin 256) (cc : Fin 2) (q : Fin 128) :
    extractStridedSlice S8x256x2x128 ![0, 0, 0, o] S h (ix4 i p cc q) = S (ix4 i p cc ⟨o + q.val, half_lt o ho q⟩) :=
  extractStridedSlice_apply _ S h (ix4 i p cc q) (ix4 i p cc ⟨o + q.val, half_lt o ho q⟩) (fun a => by
    match a with
    | ⟨0, _⟩ => show i.val = 0 + i.val; omega
    | ⟨1, _⟩ => show p.val = 0 + p.val; omega
    | ⟨2, _⟩ => show cc.val = 0 + cc.val; omega
    | ⟨3, _⟩ => rfl)

theorem col_lt' (cc : Fin 2) (o : Nat) (ho : o = 0 ∨ o = 128) (q : Fin 128) : cc.val * 256 + (o + q.val) < 512 := by
  have := cc.isLt; have := q.isLt; omega

/-- One chunk at an entry. -/
theorem chunk_apply (A : FVec Ideal S2048x64 .f32) (R : FVec Ideal S512x64 .f32) (i : Fin 8) (cc : Fin 2) :
    chunk A R (ix2 i cc)
      = Ideal.div
          (∑ p : Fin 256, (Finset.univ : Finset (Fin 128)).fold max (Ideal.ofBits .f32 0xFF800000#32) fun q =>
            max (rowDot A R ⟨i.val * 256 + p.val, row_lt i p⟩ ⟨cc.val * 256 + (0 + q.val), col_lt' cc 0 (Or.inl rfl) q⟩)
              (rowDot A R ⟨i.val * 256 + p.val, row_lt i p⟩ ⟨cc.val * 256 + (128 + q.val), col_lt' cc 128 (Or.inr rfl) q⟩))
          (Ideal.ofBits .f32 0x43800000#32) := by
  unfold chunk
  refine (divf_apply _ _ _).trans (congrArg₂ Ideal.div ?_ rfl)
  refine (Ideal.multiReduction_add_single _ _ _ _ _ (ix2 i cc)).trans ?_
  refine Finset.sum_congr rfl fun p _ => ?_
  rw [lift_patch reduces_S8x256x2_S8x2 i cc p]
  refine (Ideal.multiReduction_maximumf_single _ _ _ _ _ (ix3 i p cc)).trans ?_
  refine congrArg (fun f => Finset.fold max (Ideal.ofBits .f32 0xFF800000#32) f Finset.univ) (funext fun q => ?_)
  show maximumf _ _ (reduces_S8x256x2x128_S8x256x2.lift (ix3 i p cc) q) = _
  rw [lift_lane reduces_S8x256x2x128_S8x256x2 i p cc q]
  refine (maximumf_apply _ _ _).trans (congrArg₂ max ?_ ?_)
  · exact (slice_apply 0 (Or.inl rfl) _ _ i p cc q).trans (scores_apply A R i p cc _)
  · exact (slice_apply 128 (Or.inr rfl) _ _ i p cc q).trans (scores_apply A R i p cc _)

end Cert.KernelIdeal.Sim

end
-- ==== Proof.RefSim.lean ====
/-
  The reference's patch similarity read at an entry, on the extended reals.

  With `patchDot b a j q i p = sum_k b (j, q, k) * a (i, p, k)`, entry `(i, j)` of `simRef a b` is
      (sum_{p < 256}  max_{q < 256} patchDot b a j q i p) / 256,
  the maximum taken from the value of the minus-infinity word: the contraction's result is indexed `(j, q, i, p)`,
  the transposition reads it at `(i, j, p, q)`, the maximum runs over the last axis, the sum (from zero) over the
  patches `p`, and the quotient is taken entry by entry.
-/
import proofs.«149478_j24739011625309_2_alg».proof.Proof.Gen.ReferenceIdeal
import proofs.«149478_j24739011625309_2_alg».proof.Proof.Spec
import proofs.«149478_j24739011625309_2_alg».proof.Proof.LibContract
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Sep

open Idealize.ShloMosaic Idealize.ShloMosaic.ValueIdx Idealize.SL.Sem Cert.ReferenceIdeal
open Cert.ReferenceIdeal.Facts₀
open scoped BigOperators

/-- Patch `q` of image `j` of `b` against patch `p` of image `i` of `a`. -/
def patchDot (b a : FVec Ideal S64x256x64 .f32) (j : Fin 64) (q : Fin 256) (i : Fin 64) (p : Fin 256) : EReal :=
  ∑ k : Fin 64, b (ix3 j q k) * a (ix3 i p k)

/-- The contraction over the last axes at an entry. -/
theorem dot_apply (b a : FVec Ideal S64x256x64 .f32) (j : Fin 64) (q : Fin 256) (i : Fin 64) (p : Fin 256) :
    Host.dotGeneral dot_S64x256x64_S64x256x64_S64x256x64x256_2_2_01_01_n_n none b a (ix4 j q i p) = patchDot b a j q i p :=
  Cert.LibContract.dotGeneral_apply dot_S64x256x64_S64x256x64_S64x256x64x256_2_2_01_01_n_n 64 rfl rfl none _ b a (ix4 j q i p)
    (fun k => ix3 j q k) (fun k => ix3 i p k)
    (fun c k h => funext fun x => Fin.ext (by
      match x with
      | ⟨0, _⟩ => rfl
      | ⟨1, _⟩ => rfl
      | ⟨2, _⟩ => exact h))
    (fun c k h => funext fun x => Fin.ext (by
      match x with
      | ⟨0, _⟩ => rfl
      | ⟨1, _⟩ => rfl
      | ⟨2, _⟩ => exact h))

/-- The transposition `(j, q, i, p) -> (i, j, p, q)` at an entry. -/
theorem transposed_apply (X : FVec Ideal S64x256x64x256 .f32) (i j : Fin 64) (p q : Fin 256) :
    transpose S64x64x256x256 [2, 0, 3, 1] X transposes_S64x256x64x256_S64x64x256x256_2_0_3_1 (ix4 i j p q) = X (ix4 j q i p) :=
  transpose_apply _ X _ (ix4 i j p q) (ix4 j q i p) (fun b => by
    match b with
    | ⟨0, _⟩ => rfl
    | ⟨1, _⟩ => rfl
    | ⟨2, _⟩ => rfl
    | ⟨3, _⟩ => rfl)

theorem lift_q (h : S64x64x256x256.Reduces [3] S64x64x256) (i j : Fin 64) (p q : Fin 256) :
    h.lift (ix3 i j p) q = ix4 i j p q := by
  funext a; apply Fin.ext
  match a with
  | ⟨0, _⟩ => rfl
  | ⟨1, _⟩ => rfl
  | ⟨2, _⟩ => rfl
  | ⟨3, _⟩ => rfl

theorem lift_p (h : S64x64x256.Reduces [2] S64x64) (i j : Fin 64) (p : Fin 256) :
    h.lift (ix2 i j) p = ix3 i j p := by
  funext a; apply Fin.ext
  match a with
  | ⟨0, _⟩ => rfl
  | ⟨1, _⟩ => rfl
  | ⟨2, _⟩ => rfl

/-- The similarity matrix at an entry. -/
theorem simRef_apply (a b : FVec Ideal S64x256x64 .f32) (i j : Fin 64) :
    simRef a b (ix2 i j)
      = Ideal.div
          (∑ p : Fin 256, (Finset.univ : Finset (Fin 256)).fold max (Ideal.ofBits .f32 0xFF800000#32) fun q =>
            patchDot b a j q i p)
          (Ideal.ofBits .f32 0x43800000#32) := by
  have h3 : S64x64x256x256.Reduces [3] S64x64x256 := by decide
  have h2 : S64x64x256.Reduces [2] S64x64 := by decide
  unfold simRef
  refine (hostDivf_apply _ _ _).trans (congrArg₂ Ideal.div ?_ rfl)
  refine (hostReduceAdd_apply _ _ _ _ _).trans ?_
  refine (Ideal.hostReduceAdd_single _ h2 _ _ (ix2 i j)).trans ?_
  show Ideal.ofBits .f32 0x00000000#32 + _ = _
  rw [Ideal.ofBits_zero_f32, zero_add]
  refine Finset.sum_congr rfl fun p _ => ?_
  rw [lift_p h2 i j p]
  refine (Host.reduce_eq_fold_single FloatOps.maximumf _ _ _ h3 _ (ix3 i j p)).trans ?_
  show Finset.fold max (Ideal.ofBits .f32 0xFF800000#32) _ Finset.univ = _
  refine congrArg (fun f => Finset.fold max (Ideal.ofBits .f32 0xFF800000#32) f Finset.univ) (funext fun q => ?_)
  show transpose _ _ _ _ (h3.lift (ix3 i j p) q) = _
  rw [lift_q h3 i j p q]
  exact (transposed_apply _ i j p q).trans (dot_apply b a j q i p)

end Cert.ReferenceIdeal.Sep

end
-- ==== Proof.MaxHalves.lean ====
/-
  The maximum of a family indexed by `Fin (n + n)`, taken from any starting value, is the maximum over `q : Fin n`
  of the larger of the entries `q` and `q + n`: a lane maximum computed as an elementwise maximum of the two halves
  followed by a maximum over half as many lanes.  Both sides are the least upper bound of the same finite set of
  values together with the starting value, in any linear order.
-/
import Mathlib.Data.Finset.Fold
import Mathlib.Data.Fintype.Basic
import Mathlib.Data.Fin.Basic
import Mathlib.Order.Lattice

namespace Cert.MaxHalves

variable {α : Type*} [LinearOrder α]

theorem fold_max_halves (n : ℕ) (b : α) (Z : Fin (n + n) → α) :
    (Finset.univ : Finset (Fin (n + n))).fold max b Z
      = (Finset.univ : Finset (Fin n)).fold max b
          (fun q => max (Z ⟨q.val, by have := q.isLt; omega⟩) (Z ⟨q.val + n, by have := q.isLt; omega⟩)) := by
  apply le_antisymm
  · rw [Finset.fold_max_le]
    refine ⟨(Finset.le_fold_max _).2 (Or.inl le_rfl), fun x _ => ?_⟩
    by_cases hx : x.val < n
    · exact (Finset.le_fold_max _).2 (Or.inr ⟨⟨x.val, hx⟩, Finset.mem_univ _, le_max_left _ _⟩)
    · refine (Finset.le_fold_max _).2 (Or.inr ⟨⟨x.val - n, by have := x.isLt; omega⟩, Finset.mem_univ _, ?_⟩)
      have hxe : (⟨x.val - n + n, by have := x.isLt; omega⟩ : Fin (n + n)) = x := Fin.ext (by show x.val - n + n = x.val; omega)
      show Z x ≤ max _ (Z ⟨x.val - n + n, _⟩)
      rw [hxe]
      exact le_max_right _ _
  · rw [Finset.fold_max_le]
    refine ⟨(Finset.le_fold_max _).2 (Or.inl le_rfl), fun q _ => max_le ?_ ?_⟩
    · exact (Finset.le_fold_max _).2 (Or.inr ⟨_, Finset.mem_univ _, le_rfl⟩)
    · exact (Finset.le_fold_max _).2 (Or.inr ⟨_, Finset.mem_univ _, le_rfl⟩)

end Cert.MaxHalves
-- ==== Proof.Bridge.lean ====
/-
  One chunk of the kernel is the corresponding 8 x 2 block of the reference's similarity matrix.

  Let `a`, `b` be two stacks of 64 images of 256 patches.  At grid point `t` and chunk `c` the kernel's query matrix
  `A` holds images `8t .. 8t+7` of `a` (row `i*256 + p` = patch `p` of image `8t + i`) and its chunk rows `R` hold
  images `2c, 2c+1` of `b` (row `cc*256 + q` = patch `q` of image `2c + cc`).  Then entry `(i, cc)` of the chunk is
  entry `(8t + i, 2c + cc)` of `simRef a b`:
    * each score is the same inner product with its two factors exchanged (multiplication commutes);
    * the largest of 256 scores is the largest, over 128 lanes, of the larger of lanes `q` and `q + 128`;
    * the sum over the patches and the division by 256 are the same on both sides.
  None of these steps needs the numbers to be finite.
-/
import proofs.«149478_j24739011625309_2_alg».proof.Proof.KChunkAt
import proofs.«149478_j24739011625309_2_alg».proof.Proof.RefSim
import proofs.«149478_j24739011625309_2_alg».proof.Proof.MaxHalves

noncomputable section

namespace Cert.Bridge

open Idealize.ShloMosaic Idealize.ShloMosaic.ValueIdx Idealize.SL.Sem
open Cert.KernelIdeal.Sim Cert.ReferenceIdeal.Sep
open scoped BigOperators

theorem img_lt (t i : Fin 8) : 8 * t.val + i.val < 64 := by have := t.isLt; have := i.isLt; omega
theorem oth_lt (c : Fin 32) (cc : Fin 2) : 2 * c.val + cc.val < 64 := by have := c.isLt; have := cc.isLt; omega

theorem chunk_eq_simRef (a b : FVec Ideal Cert.ReferenceIdeal.S64x256x64 .f32)
    (A : FVec Ideal Cert.KernelIdeal.S2048x64 .f32) (R : FVec Ideal Cert.KernelIdeal.S512x64 .f32) (t : Fin 8) (c : Fin 32)
    (hA : ∀ (i : Fin 8) (p : Fin 256) (k : Fin 64),
      A (ix2 (⟨i.val * 256 + p.val, row_lt i p⟩ : Fin 2048) k) = a (ix3 (⟨8 * t.val + i.val, img_lt t i⟩ : Fin 64) p k))
    (hR : ∀ (cc : Fin 2) (q : Fin 256) (k : Fin 64),
      R (ix2 (⟨cc.val * 256 + q.val, col_lt cc q⟩ : Fin 512) k) = b (ix3 (⟨2 * c.val + cc.val, oth_lt c cc⟩ : Fin 64) q k))
    (i : Fin 8) (cc : Fin 2) :
    chunk A R (ix2 i cc)
      = simRef a b (ix2 (⟨8 * t.val + i.val, img_lt t i⟩ : Fin 64) (⟨2 * c.val + cc.val, oth_lt c cc⟩ : Fin 64)) := by
  rw [chunk_apply, simRef_apply]
  refine congrArg₂ Ideal.div (Finset.sum_congr rfl fun p _ => ?_) rfl
  -- the scores of this patch against the 256 patches of the other image
  have hdot : ∀ (q : Fin 256),
      rowDot A R ⟨i.val * 256 + p.val, row_lt i p⟩ ⟨cc.val * 256 + q.val, col_lt cc q⟩
        = patchDot b a ⟨2 * c.val + cc.val, oth_lt c cc⟩ q ⟨8 * t.val + i.val, img_lt t i⟩ p := fun q => by
    unfold rowDot patchDot
    refine Finset.sum_congr rfl fun k _ => ?_
    rw [hA i p k, hR cc q k, mul_comm]
  have hZ := Cert.MaxHalves.fold_max_halves 128 (Ideal.ofBits .f32 0xFF800000#32)
    (fun q : Fin (128 + 128) => patchDot b a ⟨2 * c.val + cc.val, oth_lt c cc⟩ (⟨q.val, q.isLt⟩ : Fin 256) ⟨8 * t.val + i.val, img_lt t i⟩ p)
  refine Eq.trans ?_ hZ.symm
  refine congrArg (fun f => Finset.fold max (Ideal.ofBits .f32 0xFF800000#32) f Finset.univ) (funext fun q => ?_)
  refine congrArg₂ max ?_ ?_
  · exact (hdot ⟨0 + q.val, half_lt 0 (Or.inl rfl) q⟩).trans
      (congrArg (fun z => patchDot b a _ z _ p) (Fin.ext (by show 0 + q.val = q.val; omega)))
  · exact (hdot ⟨128 + q.val, half_lt 128 (Or.inr rfl) q⟩).trans
      (congrArg (fun z => patchDot b a _ z _ p) (Fin.ext (by show 128 + q.val = q.val + 128; omega)))

end Cert.Bridge

end
-- ==== Proof.KBlock.lean ====
/-
  The kernel body's two output blocks at a grid point, entry by entry.

  Suppose the point's query block `x0` holds images `8t .. 8t+7` of a stack `a`, and the resident [16384, 64] matrix
  `x` holds a stack `b` flattened (row `r` = patch `r mod 256` of image `r div 256`).  Then the [8, 64] block the body
  stores — 32 chunks side by side, chunk `n` in columns `2n, 2n+1` — is rows `8t .. 8t+7` of `simRef a b`:
  column `j` lies in chunk `j div 2` at local column `j mod 2`, and chunk `n` reads rows `512 n ..` of `x`, which are
  images `2n, 2n+1` of `b`.
-/
import proofs.«149478_j24739011625309_2_alg».proof.Proof.KOut
import proofs.«149478_j24739011625309_2_alg».proof.Proof.Bridge

noncomputable section

namespace Cert.KernelIdeal.Sim

open Idealize.ShloMosaic Idealize.ShloMosaic.ValueIdx Idealize.SL.Sem Cert.KernelIdeal Cert.KernelIdeal.Gen
open Cert.ReferenceIdeal.Sep
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

theorem div2_lt (j : Fin 64) : j.val / 2 < 32 := by have := j.isLt; omega
theorem mod2_lt (j : Fin 64) : j.val % 2 < 2 := by omega

/-- Column `j` of 32 blocks side by side is local column `j mod 2` of block `j div 2`. -/
theorem cat32_apply (g : Fin 32 → FVec Ideal S8x2 .f32) (i : Fin 8) (j : Fin 64) :
    cat32 g (ix2 i j) = g ⟨j.val / 2, div2_lt j⟩ (ix2 i (⟨j.val % 2, mod2_lt j⟩ : Fin 2)) := by
  unfold cat32
  refine concatenate_ofFn_apply (1 : Fin S8x64.rank) g _ rfl 2 rfl (ix2 i j) ⟨j.val / 2, div2_lt j⟩ rfl
    (ix2 i (⟨j.val % 2, mod2_lt j⟩ : Fin 2)) rfl (fun b hb => ?_)
  match b with
  | ⟨0, _⟩ => rfl
  | ⟨1, _⟩ => exact absurd rfl hb

/-- The query block as a matrix: row `i*256 + p` is patch `p` of image `i`. -/
theorem flat_apply (x0 : Vec Ideal S8x256x64 .f32) (i : Fin 8) (p : Fin 256) (k : Fin 64) :
    flat x0 (ix2 (⟨i.val * 256 + p.val, row_lt i p⟩ : Fin 2048) k) = x0 (ix3 i p k) := by
  unfold flat
  rw [shapeCast_self x0 Facts₀.shapeCasts_S8x256x64_S8x256x64]
  refine shapeCast_apply _ _ _ (ix3 i p k) ?_
  rw [Shape.rowMajor_val_two, Shape.rowMajor_val_three]
  show (i.val * 256 + p.val) * 64 + k.val = (i.val * 256 + p.val) * 64 + k.val
  rfl

theorem crow_lt (n : Fin 32) (s : Fin 512) : 512 * n.val + s.val < 16384 := by have := n.isLt; have := s.isLt; omega

/-- Chunk `n`'s rows of the resident matrix. -/
theorem ld_crect_apply (x : Vec Ideal S16384x64 .f32) (n : Fin 32) (s : Fin 512) (k : Fin 64) :
    View.ld x (crect n) (ix2 s k) = x (ix2 (⟨512 * n.val + s.val, crow_lt n s⟩ : Fin 16384) k) := by
  show x ((crect n).emb (ix2 s k)) = _
  refine congrArg x (funext fun a => Fin.ext ?_)
  match a with
  | ⟨0, _⟩ => show 512 * n.val + 1 * s.val = 512 * n.val + s.val; omega
  | ⟨1, _⟩ => show 0 + 1 * k.val = k.val; omega

theorem r256_lt (r : Fin 16384) : r.val / 256 < 64 := by have := r.isLt; omega
theorem m256_lt (r : Fin 16384) : r.val % 256 < 256 := by omega

/-- The 32 chunks side by side are the point's 8 rows of the similarity matrix. -/
theorem block_apply (a b : FVec Ideal Cert.ReferenceIdeal.S64x256x64 .f32) (x0 : Vec Ideal S8x256x64 .f32)
    (x : Vec Ideal S16384x64 .f32) (t : Fin 8)
    (h0 : ∀ (i : Fin 8) (p : Fin 256) (k : Fin 64),
      x0 (ix3 i p k) = a (ix3 (⟨8 * t.val + i.val, Cert.Bridge.img_lt t i⟩ : Fin 64) p k))
    (h1 : ∀ (r : Fin 16384) (k : Fin 64),
      x (ix2 r k) = b (ix3 (⟨r.val / 256, r256_lt r⟩ : Fin 64) (⟨r.val % 256, m256_lt r⟩ : Fin 256) k))
    (i : Fin 8) (j : Fin 64) :
    cat32 (fun n => chunk (flat (View.ld x0 r0_0)) (View.ld x (crect n))) (ix2 i j)
      = simRef a b (ix2 (⟨8 * t.val + i.val, Cert.Bridge.img_lt t i⟩ : Fin 64) j) := by
  rw [cat32_apply]
  have hx0 : View.ld x0 r0_0 = x0 := View.ld_unit_zero (Val := Elt Ideal) (S := S8x256x64) hz3 _ x0
  rw [hx0]
  refine (Cert.Bridge.chunk_eq_simRef a b (flat x0) (View.ld x (crect ⟨j.val / 2, div2_lt j⟩)) t ⟨j.val / 2, div2_lt j⟩
    (fun i' p k => (flat_apply x0 i' p k).trans (h0 i' p k))
    (fun cc q k => ?_) i ⟨j.val % 2, mod2_lt j⟩).trans ?_
  · rw [ld_crect_apply x ⟨j.val / 2, div2_lt j⟩ ⟨cc.val * 256 + q.val, col_lt cc q⟩ k, h1]
    have hcc := cc.isLt; have hq := q.isLt
    refine congrArg₂ (fun u v => b (ix3 u v k)) (Fin.ext ?_) (Fin.ext ?_)
    · show (512 * (j.val / 2) + (cc.val * 256 + q.val)) / 256 = 2 * (j.val / 2) + cc.val; omega
    · show (512 * (j.val / 2) + (cc.val * 256 + q.val)) % 256 = q.val; omega
  · refine congrArg (fun u => simRef a b (ix2 _ u)) (Fin.ext ?_)
    show 2 * (j.val / 2) + j.val % 2 = j.val; omega

end Cert.KernelIdeal.Sim

end
-- ==== Proof.KEntry.lean ====
/-
  What the kernel's region finds in its input arrays.

  Before the launch the host normalises both arguments (exactly the reference's normalisation) and reshapes each
  normalised stack [64, 256, 64] to the matrix [16384, 64].  So window 0's array is the normalised first argument,
  and the two resident matrices are the normalised first and second arguments with row `r` holding patch `r mod 256`
  of image `r div 256` (a reshape keeps row-major positions).
-/
import proofs.«149478_j24739011625309_2_alg».proof.Proof.Gen.KernelIdeal.Frame
import proofs.«149478_j24739011625309_2_alg».proof.Proof.Gen.ReferenceIdeal
import proofs.«149478_j24739011625309_2_alg».proof.Proof.Spec
import proofs.«149478_j24739011625309_2_alg».proof.Proof.KBlock
import Idealize.ShloMosaic.Lib.StableHlo.Run
import Idealize.ShloMosaic.Lib.Pipeline.Value
import Idealize.ShloMosaic.Lib.ValueIdx

noncomputable section

namespace Cert.KernelIdeal.Sim

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ)

/-- The normalised first argument, as a stack of 64 images of 256 patches. -/
def nA (c : Dev nD) : FVec Ideal Cert.ReferenceIdeal.S64x256x64 .f32 :=
  Cert.ReferenceIdeal.Sep.nrm (m ((c : Thread nD τ).loc main_arg0))
/-- The normalised second argument. -/
def nB (c : Dev nD) : FVec Ideal Cert.ReferenceIdeal.S64x256x64 .f32 :=
  Cert.ReferenceIdeal.Sep.nrm (m ((c : Thread nD τ).loc main_arg1))

attribute [local irreducible] Host.reduceAdd broadcastInDim in
theorem V_v4 (c : Dev nD) : (V m c main_v4 : FVec Ideal S64x256x64 .f32) = nA m c := by
  dsimp only [V, V0]
  simp only [hostOps0, hostOps0_1, hostOps0_2, hostOps0_3, List.flatten_cons, List.flatten_nil, List.append_nil, List.cons_append,
    List.nil_append]
  after_results_simp
  rfl

attribute [local irreducible] Host.reduceAdd broadcastInDim shapeCast in
theorem V_v10 (c : Dev nD) :
    (V m c main_v10 : FVec Ideal S16384x64 .f32) = shapeCast S16384x64 (nA m c) Facts₀.shapeCasts_S64x256x64_S16384x64 := by
  dsimp only [V, V0]
  simp only [hostOps0, hostOps0_1, hostOps0_2, hostOps0_3, List.flatten_cons, List.flatten_nil, List.append_nil, List.cons_append,
    List.nil_append]
  after_results_simp
  rfl

attribute [local irreducible] Host.reduceAdd broadcastInDim shapeCast in
theorem V_v11 (c : Dev nD) :
    (V m c main_v11 : FVec Ideal S16384x64 .f32) = shapeCast S16384x64 (nB m c) Facts₀.shapeCasts_S64x256x64_S16384x64 := by
  dsimp only [V, V0]
  simp only [hostOps0, hostOps0_1, hostOps0_2, hostOps0_3, List.flatten_cons, List.flatten_nil, List.append_nil, List.cons_append,
    List.nil_append]
  after_results_simp
  rfl

/-- A stack flattened to a matrix, read at a row. -/
theorem flatten_apply (a : FVec Ideal Cert.ReferenceIdeal.S64x256x64 .f32) (r : Fin 16384) (k : Fin 64) :
    shapeCast S16384x64 a Facts₀.shapeCasts_S64x256x64_S16384x64 (ix2 r k)
      = a (ix3 (⟨r.val / 256, r256_lt r⟩ : Fin 64) (⟨r.val % 256, m256_lt r⟩ : Fin 256) k) := by
  refine shapeCast_apply _ _ _ (ix3 (⟨r.val / 256, r256_lt r⟩ : Fin 64) (⟨r.val % 256, m256_lt r⟩ : Fin 256) k) ?_
  rw [Shape.rowMajor_val_three, Shape.rowMajor_val_two]
  show (r.val / 256 * 256 + r.val % 256) * 64 + k.val = r.val * 64 + k.val
  omega

end Cert.KernelIdeal.Sim

end
-- ==== Proof.KFinal.lean ====
/-
  The kernel's two result arrays after the run.

  Grid point `t` (of 8) stages images `8t .. 8t+7` of the normalised first argument, keeps both flattened stacks
  resident, and writes back rows `8t .. 8t+7` of each [64, 64] result.  By the block reading, those rows are the rows of
  the similarity matrix of the normalised first argument with itself (first result) and with the normalised second
  argument (second result); the 8 row blocks cover the array, so each result array IS that similarity matrix.
-/
import proofs.«149478_j24739011625309_2_alg».proof.Proof.KEntry

noncomputable section

namespace Cert.KernelIdeal.Sim

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The first result: the normalised first argument against itself. -/
def simNN (c : Dev nD) : FVec Ideal S64x64 .f32 := Cert.ReferenceIdeal.Sep.simRef (nA m c) (nA m c)
/-- The second result: the normalised first argument against the normalised second. -/
def simND (c : Dev nD) : FVec Ideal S64x64 .f32 := Cert.ReferenceIdeal.Sep.simRef (nA m c) (nB m c)

/-- The printed index maps, decided over the 8 grid points: the query window and both results move one block of
    8 rows per point, the resident matrices do not move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 8 := by
  have h : t.val < grid0.N := t.isLt
  have := N_0
  omega

/-- The grid point as a number below 8. -/
def pt (t : Fin cfg0.N) : Fin 8 := ⟨t.val, point_lt t⟩

/-- The query block at point `t` holds images `8t .. 8t+7` of the normalised first argument. -/
theorem iblk0_apply (c : Dev nD) (t : Fin cfg0.N) (i : Fin 8) (p : Fin 256) (k : Fin 64) :
    (iblk m c 0 t : Vec Ideal S8x256x64 .f32) (ix3 i p k)
      = nA m c (ix3 (⟨8 * (pt t).val + i.val, Cert.Bridge.img_lt (pt t) i⟩ : Fin 64) p k) := by
  show (V m c main_v4 : FVec Ideal S64x256x64 .f32) (((cfg0.win 0).blk t).view.emb (ix3 i p k)) = _
  refine (congrFun (V_v4 m c) _).trans (congrArg (nA m c) (funext fun a => Fin.ext ?_))
  obtain ⟨e0, e1, e2, -⟩ := idx_facts t
  match a with
  | ⟨0, _⟩ => show win0_0.index t (0 : Fin 3) * 8 + 1 * i.val = 8 * t.val + i.val; omega
  | ⟨1, _⟩ => show win0_0.index t (1 : Fin 3) * 256 + 1 * p.val = p.val; omega
  | ⟨2, _⟩ => show win0_0.index t (2 : Fin 3) * 64 + 1 * k.val = k.val; omega

/-- The first resident matrix is the normalised first argument, flattened. -/
theorem iblk1_apply (c : Dev nD) (t : Fin cfg0.N) (r : Fin 16384) (k : Fin 64) :
    (iblk m c 1 t : Vec Ideal S16384x64 .f32) (ix2 r k)
      = nA m c (ix3 (⟨r.val / 256, r256_lt r⟩ : Fin 64) (⟨r.val % 256, m256_lt r⟩ : Fin 256) k) := by
  show (V m c main_v10 : FVec Ideal S16384x64 .f32) (((cfg0.win 1).blk t).view.emb (ix2 r k)) = _
  have he : ((cfg0.win 1).blk t).view.emb (ix2 r k) = ix2 r k := by
    funext a; apply Fin.ext
    obtain ⟨-, -, -, e0, e1, -⟩ := idx_facts t
    match a with
    | ⟨0, _⟩ => show win0_1.index t (0 : Fin 2) * 16384 + 1 * r.val = r.val; omega
    | ⟨1, _⟩ => show win0_1.index t (1 : Fin 2) * 64 + 1 * k.val = k.val; omega
  rw [he]
  exact (congrFun (V_v10 m c) _).trans (flatten_apply (nA m c) r k)

/-- The second resident matrix is the normalised second argument, flattened. -/
theorem iblk2_apply (c : Dev nD) (t : Fin cfg0.N) (r : Fin 16384) (k : Fin 64) :
    (iblk m c 2 t : Vec Ideal S16384x64 .f32) (ix2 r k)
      = nB m c (ix3 (⟨r.val / 256, r256_lt r⟩ : Fin 64) (⟨r.val % 256, m256_lt r⟩ : Fin 256) k) := by
  show (V m c main_v11 : FVec Ideal S16384x64 .f32) (((cfg0.win 2).blk t).view.emb (ix2 r k)) = _
  have he : ((cfg0.win 2).blk t).view.emb (ix2 r k) = ix2 r k := by
    funext a; apply Fin.ext
    obtain ⟨-, -, -, -, -, e0, e1, -⟩ := idx_facts t
    match a with
    | ⟨0, _⟩ => show win0_2.index t (0 : Fin 2) * 16384 + 1 * r.val = r.val; omega
    | ⟨1, _⟩ => show win0_2.index t (1 : Fin 2) * 64 + 1 * k.val = k.val; omega
  rw [he]
  exact (congrFun (V_v11 m c) _).trans (flatten_apply (nB m c) r k)

/-- What point `t` writes back to the first result is block `t` of the similarity matrix. -/
theorem flushed3_eq (c : Dev nD) (t : Fin cfg0.N) :
    (dats m 0 c).flushed 3 t = ((cfg0.win 3).blk t).view.read (Elt Ideal) (simNN m c) := by
  show (cfg0.win 3).cut (grid0.coords t) ((dats m 0 c).after 3 t) = _
  rw [after0_3, out0_3_eq, View.canon_unit_zero hz2]
  funext y
  obtain ⟨i, j, rfl⟩ : ∃ (i : Fin 8) (j : Fin 64), y = ix2 i j := ⟨y 0, y 1, eq_ix2 y⟩
  show cat32 (fun n => chunk (flat (View.ld (iblk m c 0 t) r0_0)) (View.ld (iblk m c 1 t) (crect n))) (ix2 i j)
    = simNN m c (((cfg0.win 3).blk t).view.emb (ix2 i j))
  refine (block_apply (nA m c) (nA m c) (iblk m c 0 t) (iblk m c 1 t) (pt t) (iblk0_apply m c t) (iblk1_apply m c t) i j).trans ?_
  refine congrArg (simNN m c) (funext fun a => Fin.ext ?_)
  obtain ⟨-, -, -, -, -, -, -, e0, e1, -⟩ := idx_facts t
  match a with
  | ⟨0, _⟩ => show 8 * t.val + i.val = win0_3.index t (0 : Fin 2) * 8 + 1 * i.val; omega
  | ⟨1, _⟩ => show j.val = win0_3.index t (1 : Fin 2) * 64 + 1 * j.val; omega

/-- What point `t` writes back to the second result is block `t` of the second similarity matrix. -/
theorem flushed4_eq (c : Dev nD) (t : Fin cfg0.N) :
    (dats m 0 c).flushed 4 t = ((cfg0.win 4).blk t).view.read (Elt Ideal) (simND m c) := by
  show (cfg0.win 4).cut (grid0.coords t) ((dats m 0 c).after 4 t) = _
  rw [after0_4, out0_4_eq, View.canon_unit_zero hz2]
  funext y
  obtain ⟨i, j, rfl⟩ : ∃ (i : Fin 8) (j : Fin 64), y = ix2 i j := ⟨y 0, y 1, eq_ix2 y⟩
  show cat32 (fun n => chunk (flat (View.ld (iblk m c 0 t) r0_0)) (View.ld (iblk m c 2 t) (crect n))) (ix2 i j)
    = simND m c (((cfg0.win 4).blk t).view.emb (ix2 i j))
  refine (block_apply (nA m c) (nB m c) (iblk m c 0 t) (iblk m c 2 t) (pt t) (iblk0_apply m c t) (iblk2_apply m c t) i j).trans ?_
  refine congrArg (simND m c) (funext fun a => Fin.ext ?_)
  obtain ⟨-, -, -, -, -, -, -, -, -, e0, e1⟩ := idx_facts t
  match a with
  | ⟨0, _⟩ => show 8 * t.val + i.val = win0_4.index t (0 : Fin 2) * 8 + 1 * i.val; omega
  | ⟨1, _⟩ => show j.val = win0_4.index t (1 : Fin 2) * 64 + 1 * j.val; omega

/-- Every block of 8 rows is some point's. -/
theorem idx_onto3 : ∀ q0 : Fin 8, ∃ t : Fin cfg0.N, win0_3.index t = ![q0.val, 0] :=
  (by decide +kernel : ∀ q0 : Fin 8, ∃ t : Fin grid0.N, win0_3.index t = ![q0.val, 0])
theorem idx_onto4 : ∀ q0 : Fin 8, ∃ t : Fin cfg0.N, win0_4.index t = ![q0.val, 0] :=
  (by decide +kernel : ∀ q0 : Fin 8, ∃ t : Fin grid0.N, win0_4.index t = ![q0.val, 0])

/-- An index of the array is in point `t`'s block iff each coordinate is in the block's range on its axis. -/
theorem mem_blk3 (t : Fin cfg0.N) (i : S64x64.Idx) :
    i ∈ ((cfg0.win 3).blk t).view.set ↔ ∀ a : Fin 2, win0_3.index t a * S8x64.size a ≤ (i a).val ∧ (i a).val < win0_3.index t a * S8x64.size a + S8x64.size a := by
  show i ∈ ((View.whole main_v12_0).slice (win0_3.rect t)).set ↔ _
  rw [View.set_slice_whole, Rect.mem_set_unit]
  exact Iff.rfl
theorem mem_blk4 (t : Fin cfg0.N) (i : S64x64.Idx) :
    i ∈ ((cfg0.win 4).blk t).view.set ↔ ∀ a : Fin 2, win0_4.index t a * S8x64.size a ≤ (i a).val ∧ (i a).val < win0_4.index t a * S8x64.size a + S8x64.size a := by
  show i ∈ ((View.whole main_v12_1).slice (win0_4.rect t)).set ↔ _
  rw [View.set_slice_whole, Rect.mem_set_unit]
  exact Iff.rfl

/-- The blocks of 8 rows cover the first result. -/
theorem cover3 (i : S64x64.Idx) : ∃ t : Fin cfg0.N, (cfg0.win 3).flush t = true ∧ i ∈ ((cfg0.win 3).blk t).view.set := by
  have hi0 : (i 0).val < 64 := (i 0).isLt
  have hi1 : (i 1).val < 64 := (i 1).isLt
  obtain ⟨t, ht⟩ := idx_onto3 ⟨(i 0).val / 8, by omega⟩
  have q0 : win0_3.index t (0 : Fin 2) = (i 0).val / 8 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 64 ≤ (i 1).val ∧ (i 1).val < win0_3.index t (1 : Fin 2) * 64 + 64; omega

/-- The blocks of 8 rows cover the second result. -/
theorem cover4 (i : S64x64.Idx) : ∃ t : Fin cfg0.N, (cfg0.win 4).flush t = true ∧ i ∈ ((cfg0.win 4).blk t).view.set := by
  have hi0 : (i 0).val < 64 := (i 0).isLt
  have hi1 : (i 1).val < 64 := (i 1).isLt
  obtain ⟨t, ht⟩ := idx_onto4 ⟨(i 0).val / 8, by omega⟩
  have q0 : win0_4.index t (0 : Fin 2) = (i 0).val / 8 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 64 ≤ (i 1).val ∧ (i 1).val < win0_4.index t (1 : Fin 2) * 64 + 64; omega

/-- THE FIRST RESULT ARRAY after the run. -/
theorem final3 (c : Dev nD) : (dats m 0 c).arrAt 3 cfg0.N = simNN m c :=
  (dats m 0 c).arrAt_eq_of_cover 3 (simNN m c) (fun t _ => flushed3_eq m c t) (cover3)

/-- THE SECOND RESULT ARRAY after the run. -/
theorem final4 (c : Dev nD) : (dats m 0 c).arrAt 4 cfg0.N = simND m c :=
  (dats m 0 c).arrAt_eq_of_cover 4 (simND m c) (fun t _ => flushed4_eq m c t) (cover4)

end Cert.KernelIdeal.Sim

end
-- ==== Proof.RefRun.lean ====
/-
  The reference program's @main as one straight line of host operations, and what two of its values are.

  @main calls five module-local functions; a call executes the callee's body on the operands, every value of the
  body in a buffer of its own, so the program is the list of all those operations in order.  The list is cut after
  the operation that writes the second similarity matrix: `opsA` is the two normalisations and the two similarity
  matrices, `opsB` the scalar statistics computed from them.  Running the line from any memory leaves every buffer
  at the fold of the operations' results over the launch contents (`run_main`); at the two similarity matrices that
  fold is the normalisation followed by the patch similarity, as functions of the two arguments (`nn_eq`, `nd_eq`),
  and neither half of the line writes an argument (`argA0` … `argB1`).
-/
import proofs.«149478_j24739011625309_2_alg».proof.Proof.Gen.ReferenceIdeal
import proofs.«149478_j24739011625309_2_alg».proof.Proof.Spec
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀

variable {F : FTy → Type} [FloatOps F]

/-- The first 38 operations: each argument's patches normalised (the sum of squares along the last axis, its square
    root, the small constant added, the division), then for the pair (first, first) and the pair (first, second) the
    contraction, the transposition, the maximum over the last axis, the sum over the next, the division by 256. -/
abbrev opsA : List (HloOp τ sig (Elt F)) :=
  [ -- the Euclidean length of each patch of the first argument
    TRef.binary (.of main_arg0) (.of main_arg0) main_call0.v0 mulf,
    TRef.nullary main_call0.cst (constant S_ .f32 0x00000000#32),
    TRef.binary main_call0.v0 main_call0.cst main_call0.v1 (fun x v => Host.reduceAdd x v reducesTo_S64x256x64_S64x256_d2 h_S_),
    TRef.unary main_call0.v1 main_call0.v2 (broadcastInDim S64x256x1 ![0, 1] bcast_S64x256_S64x256x1_0_1),
    TRef.unary main_call0.v2 main_call0.v3 Host.sqrt,
    -- the first argument divided by that length plus the small constant
    nullary main_cst (constant S_ .f32 0x322BCC77#32),
    unary main_cst main_v1 (broadcastInDim S64x256x1 ![] bcast_S_S64x256x1),
    binary main_v0 main_v1 main_v2 addf,
    unary main_v2 main_v3 (broadcastInDim S64x256x64 ![0, 1, 2] bcast_S64x256x1_S64x256x64_0_1_2),
    binary main_arg0 main_v3 main_v4 Host.divf,
    -- the Euclidean length of each patch of the second argument
    TRef.binary (.of main_arg1) (.of main_arg1) main_call1.v0 mulf,
    TRef.nullary main_call1.cst (constant S_ .f32 0x00000000#32),
    TRef.binary main_call1.v0 main_call1.cst main_call1.v1 (fun x v => Host.reduceAdd x v reducesTo_S64x256x64_S64x256_d2 h_S_),
    TRef.unary main_call1.v1 main_call1.v2 (broadcastInDim S64x256x1 ![0, 1] bcast_S64x256_S64x256x1_0_1),
    TRef.unary main_call1.v2 main_call1.v3 Host.sqrt,
    -- the second argument divided by that length plus the small constant
    nullary main_cst_0 (constant S_ .f32 0x322BCC77#32),
    unary main_cst_0 main_v6 (broadcastInDim S64x256x1 ![] bcast_S_S64x256x1),
    binary main_v5 main_v6 main_v7 addf,
    unary main_v7 main_v8 (broadcastInDim S64x256x64 ![0, 1, 2] bcast_S64x256x1_S64x256x64_0_1_2),
    binary main_arg1 main_v8 main_v9 Host.divf,
    -- the similarity matrix of the first normalised argument with itself
    binary main_v4 main_v4 main_v10 (fun l r => Host.dotGeneral dot_S64x256x64_S64x256x64_S64x256x64x256_2_2_01_01_n_n none l r),
    unary main_v10 main_v11 (transpose S64x64x256x256 [2, 0, 3, 1] · transposes_S64x256x64x256_S64x64x256x256_2_0_3_1),
    nullary main_cst_1 (constant S_ .f32 0xFF800000#32),
    binary main_v11 main_cst_1 main_v12 (fun x v => Host.reduce FloatOps.maximumf x v reducesTo_S64x64x256x256_S64x64x256_d3 h_S_),
    nullary main_cst_2 (constant S_ .f32 0x00000000#32),
    binary main_v12 main_cst_2 main_v13 (fun x v => Host.reduceAdd x v reducesTo_S64x64x256_S64x64_d2 h_S_),
    nullary main_cst_3 (constant S_ .f32 0x43800000#32),
    unary main_cst_3 main_v14 (broadcastInDim S64x64 ![] bcast_S_S64x64),
    binary main_v13 main_v14 main_v15 Host.divf,
    -- the similarity matrix of the first normalised argument with the second
    binary main_v9 main_v4 main_v16 (fun l r => Host.dotGeneral dot_S64x256x64_S64x256x64_S64x256x64x256_2_2_01_01_n_n none l r),
    unary main_v16 main_v17 (transpose S64x64x256x256 [2, 0, 3, 1] · transposes_S64x256x64x256_S64x64x256x256_2_0_3_1),
    nullary main_cst_4 (constant S_ .f32 0xFF800000#32),
    binary main_v17 main_cst_4 main_v18 (fun x v => Host.reduce FloatOps.maximumf x v reducesTo_S64x64x256x256_S64x64x256_d3 h_S_),
    nullary main_cst_5 (constant S_ .f32 0x00000000#32),
    binary main_v18 main_cst_5 main_v19 (fun x v => Host.reduceAdd x v reducesTo_S64x64x256_S64x64_d2 h_S_),
    nullary main_cst_6 (constant S_ .f32 0x43800000#32),
    unary main_cst_6 main_v20 (broadcastInDim S64x64 ![] bcast_S_S64x64),
    binary main_v19 main_v20 main_v21 Host.divf ]

/-- The remaining 59 operations: the mask of the off-diagonal entries; the mean and the standard deviation of the
    first matrix's off-diagonal entries (divisors 4032 and 4031); the mean of the second matrix and its standard
    deviation (the variance with divisor 4096 − 1, not-a-number when that divisor is not positive); the difference
    of the means over the sum of the deviations plus the small constant, negated. -/
abbrev opsB : List (HloOp τ sig (Elt F)) :=
  [ -- the mask: row index plus zero differs from column index
    nullary main_v22 (iotaInDim S64x64 32 0),
    nullary main_v23 (iotaInDim S64x64 32 1),
    nullary main_c (constantI S_ 32 0#32),
    unary main_c main_v24 (broadcastInDim S64x64 ![] bcast_S_S64x64),
    binary main_v22 main_v24 main_v25 addi,
    binary main_v25 main_v23 main_v26 (cmpi .eq),
    unary main_v26 main_v27 noti,
    nullary main_cst_7 (constant S_ .f32 0x00000000#32),
    -- the first matrix with its diagonal replaced by zero
    TRef.unary (.of main_cst_7) main_call2.v0 id,
    TRef.unary main_call2.v0 main_call2.v1 (broadcastInDim S64x64 ![] bcast_S_S64x64),
    TRef.ternary (.of main_v27) (.of main_v15) main_call2.v1 main_call2.v2 select,
    -- its mean over the 4032 off-diagonal entries, and the squared deviations from it
    nullary main_cst_8 (constant S_ .f32 0x00000000#32),
    binary main_v28 main_cst_8 main_v29 (fun x v => Host.reduceAdd x v reducesTo_S64x64_S_d0_1 h_S_),
    nullary main_cst_9 (constant S_ .f32 0x457C0000#32),
    binary main_v29 main_cst_9 main_v30 Host.divf,
    unary main_v30 main_v31 (broadcastInDim S64x64 ![] bcast_S_S64x64),
    binary main_v15 main_v31 main_v32 subf,
    binary main_v32 main_v32 main_v33 mulf,
    nullary main_cst_10 (constant S_ .f32 0x00000000#32),
    -- the squared deviations with the diagonal replaced by zero
    TRef.unary (.of main_cst_10) main_call3.v0 id,
    TRef.unary main_call3.v0 main_call3.v1 (broadcastInDim S64x64 ![] bcast_S_S64x64),
    TRef.ternary (.of main_v27) (.of main_v33) main_call3.v1 main_call3.v2 select,
    -- the standard deviation of the off-diagonal entries, and the mean of the second matrix
    nullary main_cst_11 (constant S_ .f32 0x00000000#32),
    binary main_v34 main_cst_11 main_v35 (fun x v => Host.reduceAdd x v reducesTo_S64x64_S_d0_1 h_S_),
    nullary main_cst_12 (constant S_ .f32 0x457BF000#32),
    binary main_v35 main_cst_12 main_v36 Host.divf,
    unary main_v36 main_v37 Host.sqrt,
    nullary main_cst_13 (constant S_ .f32 0x00000000#32),
    binary main_v21 main_cst_13 main_v38 (fun x v => Host.reduceAdd x v reducesTo_S64x64_S_d0_1 h_S_),
    nullary main_cst_14 (constant S_ .f32 0x45800000#32),
    binary main_v38 main_cst_14 main_v39 Host.divf,
    nullary main_c_15 (constantI S_ 32 1#32),
    -- the variance of the second matrix with one degree of freedom removed
    TRef.nullary main_call4.call0.cst (constant S_ .f32 0x00000000#32),
    TRef.binary (.of main_v21) main_call4.call0.cst main_call4.call0.v0 (fun x v => Host.reduceAdd x v reducesTo_S64x64_S_d0_1 h_S_),
    TRef.unary main_call4.call0.v0 main_call4.call0.v1 (broadcastInDim S1x1 ![] bcast_S_S1x1),
    TRef.nullary main_call4.call0.cst_0 (constant S_ .f32 0x45800000#32),
    TRef.unary main_call4.call0.cst_0 main_call4.call0.v2 (broadcastInDim S1x1 ![] bcast_S_S1x1),
    TRef.binary main_call4.call0.v1 main_call4.call0.v2 main_call4.call0.v3 Host.divf,
    TRef.unary main_call4.call0.v3 main_call4.call0.v4 (broadcastInDim S64x64 ![0, 1] bcast_S1x1_S64x64_0_1),
    TRef.binary (.of main_v21) main_call4.call0.v4 main_call4.call0.v5 subf,
    TRef.binary main_call4.call0.v5 main_call4.call0.v5 main_call4.call0.v6 mulf,
    TRef.unary (.of main_c_15) main_call4.call0.v7 (sitofp .f32),
    TRef.nullary main_call4.call0.cst_1 (constant S_ .f32 0x45800000#32),
    TRef.binary main_call4.call0.cst_1 main_call4.call0.v7 main_call4.call0.v8 subf,
    TRef.nullary main_call4.call0.cst_2 (constant S_ .f32 0x00000000#32),
    TRef.binary main_call4.call0.v6 main_call4.call0.cst_2 main_call4.call0.v9 (fun x v => Host.reduceAdd x v reducesTo_S64x64_S_d0_1 h_S_),
    TRef.binary main_call4.call0.v9 main_call4.call0.v8 main_call4.call0.v10 Host.divf,
    TRef.nullary main_call4.call0.cst_3 (constant S_ .f32 0x00000000#32),
    TRef.binary main_call4.call0.v8 main_call4.call0.cst_3 main_call4.call0.v11 (cmpf .ogt),
    TRef.nullary main_call4.call0.cst_4 (constant S_ .f32 0x7FC00000#32),
    -- not-a-number where the divisor is not positive
    TRef.unary main_call4.call0.cst_4 main_call4.call0.call0.v0 id,
    TRef.ternary main_call4.call0.v11 main_call4.call0.v10 main_call4.call0.call0.v0 main_call4.call0.call0.v1 select,
    -- its square root
    TRef.unary main_call4.call0.call0.v1 main_call4.v1 Host.sqrt,
    -- the difference of the means over the sum of the deviations plus the small constant, negated
    binary main_v30 main_v39 main_v41 subf,
    binary main_v37 main_v40 main_v42 addf,
    nullary main_cst_16 (constant S_ .f32 0x322BCC77#32),
    binary main_v42 main_cst_16 main_v43 addf,
    binary main_v41 main_v43 main_v44 Host.divf,
    unary main_v44 main_v45 Host.negf ]

-- ninety-seven binds re-associated: the rewriting under the chain recurses once per statement
set_option maxRecDepth 8192 in
set_option maxHeartbeats 4000000 in
/-- @main is that straight line: its two windows in turn, each function's definition unfolded at its calls and the
    calls' records at their fields; both sides are then one chain of operation steps once sequencing is
    reassociated. -/
theorem main_eq (c : Dev nD) : main (F := F) c = seq (opsA ++ opsB) := by
  simp only [main, main_part0, main_part1, fn_norm.body, fn_where.body, fn_where_0.body, fn_var.body, fn_std.body,
    seq_append, seq, bind_assoc, pure_bind]
  rfl

/-- The signature scopes no TensorCore buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem opsA_sub : (opsA : List (HloOp τ sig (Elt F))).Forall fun op => op.bufs ⊆ tcRefs τ sig :=
  ⟨binary_bufs_sub .., nullary_bufs_sub .., binary_bufs_sub .., unary_bufs_sub .., unary_bufs_sub ..,
    nullary_bufs_sub .., unary_bufs_sub .., binary_bufs_sub .., unary_bufs_sub .., binary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub ..,
    binary_bufs_sub .., unary_bufs_sub .., nullary_bufs_sub .., binary_bufs_sub .., nullary_bufs_sub ..,
    binary_bufs_sub .., nullary_bufs_sub .., unary_bufs_sub .., binary_bufs_sub ..,
    binary_bufs_sub .., unary_bufs_sub .., nullary_bufs_sub .., binary_bufs_sub .., nullary_bufs_sub ..,
    binary_bufs_sub .., nullary_bufs_sub .., unary_bufs_sub .., binary_bufs_sub ..⟩

theorem opsB_sub : (opsB : List (HloOp τ sig (Elt F))).Forall fun op => op.bufs ⊆ tcRefs τ sig :=
  ⟨nullary_bufs_sub .., nullary_bufs_sub .., nullary_bufs_sub .., unary_bufs_sub .., binary_bufs_sub ..,
    binary_bufs_sub .., unary_bufs_sub .., nullary_bufs_sub ..,
    unary_bufs_sub .., unary_bufs_sub .., ternary_bufs_sub ..,
    nullary_bufs_sub .., binary_bufs_sub .., nullary_bufs_sub .., binary_bufs_sub .., unary_bufs_sub ..,
    binary_bufs_sub .., binary_bufs_sub .., nullary_bufs_sub ..,
    unary_bufs_sub .., unary_bufs_sub .., ternary_bufs_sub ..,
    nullary_bufs_sub .., binary_bufs_sub .., nullary_bufs_sub .., binary_bufs_sub .., unary_bufs_sub ..,
    nullary_bufs_sub .., binary_bufs_sub .., nullary_bufs_sub .., binary_bufs_sub .., nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., binary_bufs_sub ..,
    nullary_bufs_sub .., binary_bufs_sub .., nullary_bufs_sub .., unary_bufs_sub .., ternary_bufs_sub ..,
    unary_bufs_sub ..,
    binary_bufs_sub .., binary_bufs_sub .., nullary_bufs_sub .., binary_bufs_sub .., binary_bufs_sub ..,
    unary_bufs_sub ..⟩

theorem ops_sub : (opsA ++ opsB : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

/-- Each operation determines its results: none asks for a buffer of contents not chosen. -/
theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem ops_fresh : ∀ op ∈ (opsA ++ opsB : List (HloOp τ sig (Elt F))), op.fresh = ∅ :=
  fun op h => (List.mem_append.mp h).elim
    (List.forall_iff_forall_mem.mp opsA_fresh op) (List.forall_iff_forall_mem.mp opsB_fresh op)

/-- On the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsA ++ opsB) (launchContents m c) (Proc.devRef .tc b) :=
  run_seq scopedRefs_eq scopedSems_eq defs main (fun _ => opsA ++ opsB) main_eq (fun _ => ops_sub) m ρ (fun _ => ops_fresh)

/-! What the first half leaves at the two similarity matrices.  The reductions, the transposition and the broadcasts stay folded while the fold over the operations is computed: the equations never look inside them. -/

attribute [local irreducible] Host.reduce Host.reduceAdd transpose broadcastInDim in
set_option maxRecDepth 8192 in
/-- The first similarity matrix is the patch similarity of the normalised first argument with itself. -/
theorem nn_eq (V : Valuation τ sig (Elt F)) :
    after opsA V (main_v15 : DevRef τ sig)
      = Sep.simRef (Sep.nrm (V (main_arg0 : DevRef τ sig))) (Sep.nrm (V (main_arg0 : DevRef τ sig))) := by
  after_results_simp
  rfl

attribute [local irreducible] Host.reduce Host.reduceAdd transpose broadcastInDim in
set_option maxRecDepth 8192 in
/-- The second is the patch similarity of the normalised first argument with the normalised second. -/
theorem nd_eq (V : Valuation τ sig (Elt F)) :
    after opsA V (main_v21 : DevRef τ sig)
      = Sep.simRef (Sep.nrm (V (main_arg0 : DevRef τ sig))) (Sep.nrm (V (main_arg1 : DevRef τ sig))) := by
  after_results_simp
  rfl

/-- Neither half writes an argument. -/
theorem argA0 (V : Valuation τ sig (Elt F)) :
    after opsA V (main_arg0 : DevRef τ sig) = V (main_arg0 : DevRef τ sig) := by
  after_results_simp
theorem argA1 (V : Valuation τ sig (Elt F)) :
    after opsA V (main_arg1 : DevRef τ sig) = V (main_arg1 : DevRef τ sig) := by
  after_results_simp
theorem argB0 (V : Valuation τ sig (Elt F)) :
    after opsB V (main_arg0 : DevRef τ sig) = V (main_arg0 : DevRef τ sig) := by
  after_results_simp
theorem argB1 (V : Valuation τ sig (Elt F)) :
    after opsB V (main_arg1 : DevRef τ sig) = V (main_arg1 : DevRef τ sig) := by
  after_results_simp

end Cert.ReferenceIdeal.RefRun

end
-- ==== Proof.KTail.lean ====
/-
  The statistics computed from the two similarity matrices: the kernel's program and the reference run the same host
  operations on them.

  After the region the kernel's @main computes, from its two result arrays, the mean and the unbiased standard
  deviation of the off-diagonal entries of the first, the mean and the unbiased standard deviation of the second, and
  the negated quotient of the difference of the means by the sum of the deviations plus a small constant.  The
  reference's @main does the same, operation for operation and constant for constant, from its own two similarity
  matrices.  So once the two pairs of matrices are equal, the two scalar results are equal: both are one and the same
  composition of host operations applied to equal arrays, and nothing about those operations is used.
-/
import proofs.«149478_j24739011625309_2_alg».proof.Proof.KFinal
import proofs.«149478_j24739011625309_2_alg».proof.Proof.RefRun

noncomputable section

namespace Cert.KernelIdeal.Sim

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ)

/-- The buffers as the lines after the region find them: the pipeline's arrays as the run left them, the rest as
    the region found them. -/
def tailEntry (c : Dev nD) : Valuation τ sig (Elt Ideal) :=
  Pipeline.withArrays (cfgs 0).spec c (V0 m c) fun w => (dats m 0 c).arrAt w (cfgs 0).N

theorem tailEntry_nn (c : Dev nD) : (tailEntry m c (Proc.devRef .tc main_v12_0) : FVec Ideal S64x64 .f32) = simNN m c :=
  (Pipeline.withArrays_arr spec0 launch0.win.arr_inj c _ _ 3).trans (final3 m c)

theorem tailEntry_nd (c : Dev nD) : (tailEntry m c (Proc.devRef .tc main_v12_1) : FVec Ideal S64x64 .f32) = simND m c :=
  (Pipeline.withArrays_arr spec0 launch0.win.arr_inj c _ _ 4).trans (final4 m c)

attribute [local irreducible] Host.reduceAdd broadcastInDim Host.divf Host.sqrt Host.negf iotaInDim in
set_option maxRecDepth 8192 in
set_option maxHeartbeats 4000000 in
/-- The kernel program's scalar result is the reference's second half run from any buffers holding the same two
    similarity matrices. -/
theorem tail_bridge (c : Dev nD) (W : Valuation Cert.ReferenceIdeal.τ Cert.ReferenceIdeal.sig (Elt Ideal))
    (h15 : (W (Cert.ReferenceIdeal.main_v15 : DevRef Cert.ReferenceIdeal.τ Cert.ReferenceIdeal.sig) : FVec Ideal S64x64 .f32) = simNN m c)
    (h21 : (W (Cert.ReferenceIdeal.main_v21 : DevRef Cert.ReferenceIdeal.τ Cert.ReferenceIdeal.sig) : FVec Ideal S64x64 .f32) = simND m c) :
    (Pipeline.afterTail₀ cfgs (dats m) 0 (V0 m) [hostOps1, hostOps1_1, hostOps1_2, hostOps1_3, hostOps1_4, hostOps1_5, hostOps1_6] c main_v36
        : FVec Ideal S_ .f32)
      = after Cert.ReferenceIdeal.RefRun.opsB W (Cert.ReferenceIdeal.main_v45 : DevRef Cert.ReferenceIdeal.τ Cert.ReferenceIdeal.sig) := by
  unfold Pipeline.afterTail₀
  have e0 := tailEntry_nn m c
  have e1 := tailEntry_nd m c
  unfold tailEntry at e0 e1
  generalize Pipeline.withArrays (cfgs 0).spec c (V0 m c) (fun w => (dats m 0 c).arrAt w (cfgs 0).N) = X at e0 e1 ⊢
  simp only [hostOps1, hostOps1_1, hostOps1_2, hostOps1_3, hostOps1_4, hostOps1_5, hostOps1_6, List.flatten_cons, List.flatten_nil,
    List.append_nil, List.cons_append, List.nil_append]
  after_results_simp
  rw [e0, e1, h15, h21]

end Cert.KernelIdeal.Sim

end
-- ==== Proof.lean ====
/-
  A patch-similarity separability loss: a tiled kernel against its array-level reference, on the extended reals.

  Both programs normalise every patch of two stacks of 64 images (256 patches of 64 numbers each) by its Euclidean
  length plus a small constant, form two 64 x 64 similarity matrices — entry `(i, j)` is the mean over the patches `p`
  of image `i` of the largest inner product of `p` with a patch of image `j`, once for the first stack against itself
  and once for the first against the second — and reduce the two matrices to one number: minus the difference of
  their means (off-diagonal for the first) over the sum of their unbiased standard deviations plus a small constant.

  The reference computes each similarity matrix from one contraction of whole stacks.  The kernel computes 8 rows per
  grid point: the point's 8 images as a [2048, 64] matrix against the other stack 2 images at a time, the 256 scores
  per pair of patches folded as two halves of 128 before the maximum, the mean taken per chunk, the 32 chunks laid side
  by side.  On the extended reals these are the same numbers: products commute, a maximum of 256 values is the maximum
  over 128 of pairwise maxima, and the sums and quotients are the same.  Nothing here needs the inputs to be finite.
  The normalisation and the final statistics are the same host operations in both programs and are never opened.

  The three frames: the kernel's two are the generated frame proofs; the reference's is its run with the result
  dropped.  The idealisation rewrote nothing, so `preserves` has nothing to prove.
-/
import proofs.«149478_j24739011625309_2_alg».proof.Defs
import proofs.«149478_j24739011625309_2_alg».proof.Proof.Gen.Kernel
import proofs.«149478_j24739011625309_2_alg».proof.Proof.Gen.Kernel.Frame
import proofs.«149478_j24739011625309_2_alg».proof.Proof.Gen.KernelIdeal
import proofs.«149478_j24739011625309_2_alg».proof.Proof.Gen.KernelIdeal.Frame
import proofs.«149478_j24739011625309_2_alg».proof.Proof.Gen.ReferenceIdeal
import proofs.«149478_j24739011625309_2_alg».proof.Proof.Gen.Pre_finite_inputs
import proofs.«149478_j24739011625309_2_alg».proof.Proof.KTail
import Idealize.ShloMosaic.Adequacy
import Idealize.ShloMosaic.Init

noncomputable section

namespace Cert.Proof

open Idealize.ShloMosaic Idealize.ShloMosaic.TcCoe Idealize.SL.Sem Idealize.ShloMosaic.StableHlo
open Cert.ReferenceIdeal.RefRun Cert.KernelIdeal.Sim

theorem frame_k : Cert.frame_Kernel := fun m ρ _ => Cert.Kernel.Gen.frame m ρ

theorem frame_ki : Cert.frame_KernelIdeal := fun m ρ _ => Cert.KernelIdeal.Gen.frame m ρ

/-- The reference's scalar result, from its launch memory: the second half of its line run from where the first
    half ends. -/
def refOut (m' : (ℓ : Loc Cert.ReferenceIdeal.nD Cert.ReferenceIdeal.τ Cert.ReferenceIdeal.sig) → Buf (Elt Ideal) ℓ)
    (c : Dev Cert.ReferenceIdeal.nD) : FVec Ideal Cert.ReferenceIdeal.S_ .f32 :=
  after opsB (after opsA (launchContents m' c)) (Cert.ReferenceIdeal.main_v45 : DevRef Cert.ReferenceIdeal.τ Cert.ReferenceIdeal.sig)

/-- The reference's run: its result is `refOut`, and neither half of its line writes an argument. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v45) = refOut m' c
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono (fun r h c =>
      ⟨(h c Cert.ReferenceIdeal.main_v45).trans (congrFun (StableHlo.after_append opsA opsB (launchContents m' c)) _),
       (h c Cert.ReferenceIdeal.main_arg0).trans ((congrFun (StableHlo.after_append opsA opsB (launchContents m' c)) _).trans
          ((argB0 (after opsA (launchContents m' c))).trans (argA0 (launchContents m' c)))),
       (h c Cert.ReferenceIdeal.main_arg1).trans ((congrFun (StableHlo.after_append opsA opsB (launchContents m' c)) _).trans
          ((argB1 (after opsA (launchContents m' c))).trans (argA1 (launchContents m' c))))⟩)
    (run_main (F := Ideal) m' ρ')

theorem frame_ri : Cert.frame_ReferenceIdeal := fun m ρ _ =>
  (θ_run Cert.ReferenceIdeal.defs _ _).mono (fun _ h c => (h c).2) (ref_run m ρ)

theorem preserves : Cert.preserves_Kernel_KernelIdeal := trivial

/-- The kernel program's run: its result is the reference's second half run from any buffers that hold the kernel's two
    similarity matrices; the arguments end as launched. -/
theorem ker_run (m : (ℓ : Loc Cert.KernelIdeal.nD Cert.KernelIdeal.τ Cert.KernelIdeal.sig) → Buf (Elt Ideal) ℓ)
    (ρ : Dev Cert.KernelIdeal.nD → PrngReg)
    (W : Dev Cert.KernelIdeal.nD → Valuation Cert.ReferenceIdeal.τ Cert.ReferenceIdeal.sig (Elt Ideal))
    (h15 : ∀ c, (W c (Cert.ReferenceIdeal.main_v15 : DevRef Cert.ReferenceIdeal.τ Cert.ReferenceIdeal.sig) : FVec Ideal Cert.KernelIdeal.S64x64 .f32) = simNN m c)
    (h21 : ∀ c, (W c (Cert.ReferenceIdeal.main_v21 : DevRef Cert.ReferenceIdeal.τ Cert.ReferenceIdeal.sig) : FVec Ideal Cert.KernelIdeal.S64x64 .f32) = simND m c) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        (r.2.mem ((c.tc : Thread Cert.KernelIdeal.nD Cert.KernelIdeal.τ).loc Cert.KernelIdeal.main_v36) : FVec Ideal Cert.KernelIdeal.S_ .f32)
            = after opsB (W c) (Cert.ReferenceIdeal.main_v45 : DevRef Cert.ReferenceIdeal.τ Cert.ReferenceIdeal.sig)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun r h c =>
      ⟨((h c).2 Cert.KernelIdeal.main_v36 (Pipeline.mem_restRefs_of Cert.KernelIdeal.main_v36 (by decide) (by decide))).trans
          (tail_bridge m c (W c) (h15 c) (h21 c)),
       ((h c).2 Cert.KernelIdeal.main_arg0 (Pipeline.mem_restRefs_of Cert.KernelIdeal.main_arg0 (by decide) (by decide))).trans
          (Cert.KernelIdeal.Gen.W_main_arg0 m (Cert.KernelIdeal.Gen.dats m) c),
       ((h c).2 Cert.KernelIdeal.main_arg1 (Pipeline.mem_restRefs_of Cert.KernelIdeal.main_arg1 (by decide) (by decide))).trans
          (Cert.KernelIdeal.Gen.W_main_arg1 m (Cert.KernelIdeal.Gen.dats m) c)⟩)
    (Cert.KernelIdeal.Gen.run_main m ρ)

/-- Where the reference's first half ends, its two similarity matrices are the kernel's, when the arguments agree. -/
theorem ref_sims (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    (after opsA (launchContents m' c) (Cert.ReferenceIdeal.main_v15 : DevRef Cert.ReferenceIdeal.τ Cert.ReferenceIdeal.sig)
        : FVec Ideal Cert.KernelIdeal.S64x64 .f32) = simNN m c
    ∧ (after opsA (launchContents m' c) (Cert.ReferenceIdeal.main_v21 : DevRef Cert.ReferenceIdeal.τ Cert.ReferenceIdeal.sig)
        : FVec Ideal Cert.KernelIdeal.S64x64 .f32) = simND m c := by
  refine ⟨(nn_eq (launchContents m' c)).trans ?_, (nd_eq (launchContents m' c)).trans ?_⟩
  · show Cert.ReferenceIdeal.Sep.simRef
        (Cert.ReferenceIdeal.Sep.nrm (m' ((c.tc : Thread Cert.ReferenceIdeal.nD Cert.ReferenceIdeal.τ).loc Cert.ReferenceIdeal.main_arg0)))
        (Cert.ReferenceIdeal.Sep.nrm (m' ((c.tc : Thread Cert.ReferenceIdeal.nD Cert.ReferenceIdeal.τ).loc Cert.ReferenceIdeal.main_arg0)))
      = simNN m c
    rw [h0]; rfl
  · show Cert.ReferenceIdeal.Sep.simRef
        (Cert.ReferenceIdeal.Sep.nrm (m' ((c.tc : Thread Cert.ReferenceIdeal.nD Cert.ReferenceIdeal.τ).loc Cert.ReferenceIdeal.main_arg0)))
        (Cert.ReferenceIdeal.Sep.nrm (m' ((c.tc : Thread Cert.ReferenceIdeal.nD Cert.ReferenceIdeal.τ).loc Cert.ReferenceIdeal.main_arg1)))
      = simND m c
    rw [h0, h1]; rfl

/-- Both programs end at the same number: the reference's second half run from its own two similarity matrices, which
    are the kernel's two result arrays. -/
theorem algebraic : Cert.algebraic_KernelIdeal_ReferenceIdeal := fun m ρ m' ρ' _ hagree =>
  ⟨refOut m',
    ker_run m ρ (fun c => after opsA (launchContents m' c))
      (fun c => (ref_sims m m' c (hagree c).1 (hagree c).2).1) (fun c => (ref_sims m m' c (hagree c).1 (hagree c).2).2),
    ref_run m' ρ'⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
